-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x32 : Shape := ⟨2, ![1600000, 32]⟩
abbrev S1600000 : Shape := ⟨1, ![1600000]⟩
abbrev S64x96 : Shape := ⟨2, ![64, 96]⟩
abbrev S64 : Shape := ⟨1, ![64]⟩
abbrev S64x128 : Shape := ⟨2, ![64, 128]⟩
abbrev S64x160 : Shape := ⟨2, ![64, 160]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S64x160 : S_.BroadcastsInDim S64x160 (![] : Fin 0 → Fin S64x160.rank)
  reducesTo_S64x160_S_d0_1 : S64x160.ReducesTo [0, 1] S_

variable [Facts]

def fn_part2 {F : FTy → Type} [FloatOps F] (main_arg9 : FVec F S64x160 .f32) (main_arg10 : FVec F S64 .f32) (main_v33 : IVec S_ 1) : IVec S_ 1 :=
  let main_v34 : FVec F S64x160 .f32 := Host.absf main_arg9
  let main_cst_12 : FVec F S_ .f32 := constant S_ .f32 0x7F800000#32
  let main_v35 : FVec F S64x160 .f32 := broadcastInDim S64x160 ![] bcast_S_S64x160 main_cst_12
  let main_v36 : IVec S64x160 1 := cmpf .olt main_v34 main_v35
  let main_c_13 : IVec S_ 1 := constantI S_ 1 1#1
  let main_v37 : IVec S_ 1 := (fun x v => Host.reduce IntOp.andi x v reducesTo_S64x160_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x128 .f32) (main_arg8 : FVec F S64 .f32) (main_arg9 : FVec F S64x160 .f32) (main_arg10 : FVec F S64 .f32) (main_v13 : IVec S_ 1) (main_v16 : IVec S64x96 1) : IVec S_ 1 :=
  let main_c_5 : IVec S_ 1 := constantI S_ 1 1#1
  let main_v17 : IVec S_ 1 := (fun x v => Host.reduce IntOp.andi x v reducesTo_S64x96_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : FVec F S100000x64 .f32) (main_arg2 : FVec F S1600000x32 .f32) (main_arg3 : IVec S1600000 32) (main_arg4 : IVec S1600000 32) (main_arg5 : FVec F S64x96 .f32) (main_arg6 : FVec F S64 .f32) (main_arg7 : FVec F S64x128 .f32) (main_arg8 : FVec F S64 .f32) (main_arg9 : FVec F S64x160 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1600000x32 .f32 := Host.absf main_arg2
  let main_cst_2 : FVec F S_ .f32 := constant S_ .f32 0x7F800000#32
  let main_v10 : FVec F S1600000x32 .f32 := broadcastInDim S1600000x32 ![] bcast_S_S1600000x32 main_cst_2
  let main_v11 : IVec S1600000x32 1 := cmpf .olt main_v9 main_v10
  let main_c_3 : IVec S_ 1 := constantI S_ 1 1#1
  let main_v12 : IVec S_ 1 := (fun x v => Host.reduce IntOp.andi x v reducesTo_S1600000x32_S_d0_1 h_S_) main_v11 main_c_3
  let main_v13 : IVec S_ 1 := andi main_v8 main_v12
  let main_v14 : FVec F S64x96 .f32 := Host.absf main_arg5
  let main_cst_4 : FVec F S_ .f32 := constant S_ .f32 0x7F800000#32
  let main_v15 : FVec F S64x96 .f32 := broadcastInDim S64x96 ![] bcast_S_S64x96 main_cst_4
  let main_v16 : IVec S64x96 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S1600000x32 : Shape := ⟨2, ![1600000, 32]⟩
abbrev S1600000 : Shape := ⟨1, ![1600000]⟩
abbrev S64x96 : Shape := ⟨2, ![64, 96]⟩
abbrev S64 : Shape := ⟨1, ![64]⟩
abbrev S64x128 : Shape := ⟨2, ![64, 128]⟩
abbrev S64x160 : Shape := ⟨2, ![64, 160]⟩
abbrev S_ : Shape := ⟨0, ![]⟩
abbrev S1600000x1 : Shape := ⟨2, ![1600000, 1]⟩
abbrev S1600000x64 : Shape := ⟨2, ![1600000, 64]⟩
abbrev S96x64 : Shape := ⟨2, ![96, 64]⟩
abbrev S1x64 : Shape := ⟨2, ![1, 64]⟩
abbrev S128x64 : Shape := ⟨2, ![128, 64]⟩
abbrev S160x64 : Shape := ⟨2, ![160, 64]⟩
abbrev S8000x64 : Shape := ⟨2, ![8000, 64]⟩
abbrev S8000x32 : Shape := ⟨2, ![8000, 32]⟩
abbrev S8000x96 : Shape := ⟨2, ![8000, 96]⟩
abbrev S100000 : Shape := ⟨1, ![100000]⟩
abbrev S100000x1 : Shape := ⟨2, ![100000, 1]⟩
abbrev S8000x160 : Shape := ⟨2, ![8000, 160]⟩
abbrev S5000x64 : Shape := ⟨2, ![5000, 64]⟩
abbrev S5000x128 : Shape := ⟨2, ![5000, 128]⟩

abbrev nBuf : Space → Nat
  | .hbm => 54
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000x32, .f32⟩
  | .hbm, ⟨3, _⟩ => ⟨S1600000, .i32⟩
  | .hbm, ⟨4, _⟩ => ⟨S1600000, .i32⟩
  | .hbm, ⟨5, _⟩ => ⟨S64x96, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x160, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S96x64, .f32⟩
  | .hbm, ⟨21, _⟩ => ⟨S1x64, .f32⟩
  | .hbm, ⟨22, _⟩ => ⟨S128x64, .f32⟩
  | .hbm, ⟨23, _⟩ => ⟨S1x64, .f32⟩
  | .hbm, ⟨24, _⟩ => ⟨S160x64, .f32⟩
  | .hbm, ⟨25, _⟩ => ⟨S1x64, .f32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x64, .f32⟩
  | .hbm, ⟨53, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x32, .f32⟩
  | .local _ .vmem, ⟨3, _⟩ => ⟨S8000x32, .f32⟩
  | .local _ .vmem, ⟨4, _⟩ => ⟨S96x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x32, .f32⟩
  | .local _ .vmem, ⟨11, _⟩ => ⟨S8000x32, .f32⟩
  | .local _ .vmem, ⟨12, _⟩ => ⟨S8000x64, .f32⟩
  | .local _ .vmem, ⟨13, _⟩ => ⟨S8000x64, .f32⟩
  | .local _ .vmem, ⟨14, _⟩ => ⟨S160x64, .f32⟩
  | .local _ .vmem, ⟨15, _⟩ => ⟨S1x64, .f32⟩
  | .local _ .vmem, ⟨16, _⟩ => ⟨S8000x64, .f32⟩
  | .local _ .vmem, ⟨17, _⟩ => ⟨S8000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S128x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S160x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x96_S96x64_1_0 : S64x96.Transposes [1, 0] S96x64
  shapeCasts_S64_S1x64 : S64.ShapeCasts S1x64
  transposes_S64x128_S128x64_1_0 : S64x128.Transposes [1, 0] S128x64
  transposes_S64x160_S160x64_1_0 : S64x160.Transposes [1, 0] S160x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x32_S8000x32_0_0 : ∀ a, (![0, 0] : Fin 2 → Nat) a + S8000x32.size a ≤ S8000x32.size a
  h_S8000x32 : 0 < S8000x32.numel
  concatenates_S8000x64_S8000x32_S8000x96_d1 : Shape.Concatenates [S8000x64, S8000x32] S8000x96 1
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S8000x64_S8000x32_S8000x64_S8000x160_d1 : Shape.Concatenates [S8000x64, S8000x32, S8000x64] S8000x160 1
  inb_S160x64_S160x64_0_0 : ∀ a, (![0, 0] : Fin 2 → Nat) a + S160x64.size a ≤ S160x64.size a
  h_S160x64 : 0 < S160x64.numel
  shapeCasts_S160x64_S160x64 : S160x64.ShapeCasts S160x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  dot_S8000x96_S96x64_S8000x64_1_0_0_1_n_n_wf : DotDims.WF S8000x96 S96x64 S8000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S8000x160_S160x64_S8000x64_1_0_0_1_n_n_wf : DotDims.WF S8000x160 S160x64 S8000x64 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .f32 = 32 ∨ (Rect.block (s := S1600000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x64.size a ≤ S96x64.size a
  hwx0_2 : ∀ i : grid0.Coords, EltTy.bits .f32 = 32 ∨ (Rect.block (s := S96x64) S96x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S1600000x64.size a
  hwx0_4 : ∀ i : grid0.Coords, EltTy.bits .f32 = 32 ∨ (Rect.block (s := S1600000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S1600000x32.size a
  hwx1_1 : ∀ i : grid1.Coords, EltTy.bits .f32 = 32 ∨ (Rect.block (s := S1600000x32) S8000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1600000x64.size a
  hwx1_2 : ∀ i : grid1.Coords, EltTy.bits .f32 = 32 ∨ (Rect.block (s := S1600000x64) S8000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S160x64.size a ≤ S160x64.size a
  hwx1_3 : ∀ i : grid1.Coords, EltTy.bits .f32 = 32 ∨ (Rect.block (s := S160x64) S160x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S1600000x64.size a
  hwx1_5 : ∀ i : grid1.Coords, EltTy.bits .f32 = 32 ∨ (Rect.block (s := S1600000x64) S8000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x96_S96x64_S8000x64_1_0_0_1_n_n : DotDims S8000x96 S96x64 S8000x64 where
  lhsContracting := [1]
  rhsContracting := [0]
  lhsNonContracting := [0]
  rhsNonContracting := [1]
  lhsBatch := []
  rhsBatch := []
  wf := dot_S8000x96_S96x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S8000x160_S160x64_S8000x64_1_0_0_1_n_n : DotDims S8000x160 S160x64 S8000x64 where
  lhsContracting := [1]
  rhsContracting := [0]
  lhsNonContracting := [0]
  rhsNonContracting := [1]
  lhsBatch := []
  rhsBatch := []
  wf := dot_S8000x160_S160x64_S8000x64_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S96x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S8000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S160x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000x32 : Shape := ⟨2, ![1600000, 32]⟩
abbrev S1600000 : Shape := ⟨1, ![1600000]⟩
abbrev S64x96 : Shape := ⟨2, ![64, 96]⟩
abbrev S64 : Shape := ⟨1, ![64]⟩
abbrev S64x128 : Shape := ⟨2, ![64, 128]⟩
abbrev S64x160 : Shape := ⟨2, ![64, 160]⟩
abbrev S_ : Shape := ⟨0, ![]⟩
abbrev S1600000x1 : Shape := ⟨2, ![1600000, 1]⟩
abbrev S1600000x64 : Shape := ⟨2, ![1600000, 64]⟩
abbrev S1600000x96 : Shape := ⟨2, ![1600000, 96]⟩
abbrev S96x64 : Shape := ⟨2, ![96, 64]⟩
abbrev S1x64 : Shape := ⟨2, ![1, 64]⟩
abbrev S100000 : Shape := ⟨1, ![100000]⟩
abbrev S100000x1 : Shape := ⟨2, ![100000, 1]⟩
abbrev S1600000x160 : Shape := ⟨2, ![1600000, 160]⟩
abbrev S160x64 : Shape := ⟨2, ![160, 64]⟩
abbrev S100000x128 : Shape := ⟨2, ![100000, 128]⟩
abbrev S128x64 : Shape := ⟨2, ![128, 64]⟩

abbrev nBuf : Space → Nat
  | .hbm => 66
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000x32, .f32⟩
  | .hbm, ⟨3, _⟩ => ⟨S1600000, .i32⟩
  | .hbm, ⟨4, _⟩ => ⟨S1600000, .i32⟩
  | .hbm, ⟨5, _⟩ => ⟨S64x96, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x160, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x96, .f32⟩
  | .hbm, ⟨21, _⟩ => ⟨S96x64, .f32⟩
  | .hbm, ⟨22, _⟩ => ⟨S1600000x64, .f32⟩
  | .hbm, ⟨23, _⟩ => ⟨S1x64, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S1600000x64, .f32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x160, .f32⟩
  | .hbm, ⟨55, _⟩ => ⟨S160x64, .f32⟩
  | .hbm, ⟨56, _⟩ => ⟨S1600000x64, .f32⟩
  | .hbm, ⟨57, _⟩ => ⟨S1x64, .f32⟩
  | .hbm, ⟨58, _⟩ => ⟨S1600000x64, .f32⟩
  | .hbm, ⟨59, _⟩ => ⟨S1600000x64, .f32⟩
  | .hbm, ⟨60, _⟩ => ⟨S100000x128, .f32⟩
  | .hbm, ⟨61, _⟩ => ⟨S128x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_cst : Ref sig .tc := ⟨.hbm, 26, rfl⟩
abbrev main_call0_v0 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x32_S1600000x96_d1 : Shape.Concatenates [S1600000x64, S1600000x32] S1600000x96 1
  transposes_S64x96_S96x64_1_0 : S64x96.Transposes [1, 0] S96x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S1600000x64_S1600000x32_S1600000x64_S1600000x160_d1 : Shape.Concatenates [S1600000x64, S1600000x32, S1600000x64] S1600000x160 1
  transposes_S64x160_S160x64_1_0 : S64x160.Transposes [1, 0] S160x64
  concatenates_S100000x64_S100000x64_S100000x128_d1 : Shape.Concatenates [S100000x64, S100000x64] S100000x128 1
  transposes_S64x128_S128x64_1_0 : S64x128.Transposes [1, 0] S128x64
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x96_S96x64_S1600000x64_1_0_0_1_n_n_wf : DotDims.WF S1600000x96 S96x64 S1600000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S1600000x160_S160x64_S1600000x64_1_0_0_1_n_n_wf : DotDims.WF S1600000x160 S160x64 S1600000x64 [1] [0] [0] [1] [] []
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x96_S96x64_S1600000x64_1_0_0_1_n_n : DotDims S1600000x96 S96x64 S1600000x64 where
  lhsContracting := [1]
  rhsContracting := [0]
  lhsNonContracting := [0]
  rhsNonContracting := [1]
  lhsBatch := []
  rhsBatch := []
  wf := dot_S1600000x96_S96x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S1600000x160_S160x64_S1600000x64_1_0_0_1_n_n : DotDims S1600000x160 S160x64 S1600000x64 where
  lhsContracting := [1]
  rhsContracting := [0]
  lhsNonContracting := [0]
  rhsNonContracting := [1]
  lhsBatch := []
  rhsBatch := []
  wf := dot_S1600000x160_S160x64_S1600000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.NamedRun.lean ====
/-
  The idealized kernel's run with its two result arrays named.

  The program is five segments: host operations, the message layer's pipeline, host operations, the edge layer's
  pipeline, the node layer's pipeline. The contents of every buffer at each boundary are a fold from the launch memory;
  the last boundary's contents are `W5`. The run below says that every weakly fair execution terminates, without a
  fault, with the node result and the edge result at `W5` of their buffers and the eleven arguments as launched.
-/
import proofs.«168748_j83425444757686_2_alg».proof.Proof.Gen.KernelIdeal.Frame

set_option maxRecDepth 16384

noncomputable section

namespace Cert.KernelIdeal.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the node result (`main_v34`) and the edge result
    (`main_v33`) holding what the last boundary's contents say, and with every argument array as launched. -/
theorem run_named : θ_run defs (onTc (τ := τ) (main (F := F))) ⟨m, fun _ => 0, ρ⟩ (fun r => ∀ c : Dev nD,
      r.2.mem ((c.tc : Thread nD τ).loc main_v34) = W5 m ρ c (Proc.devRef .tc main_v34)
      ∧ r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v34 (by decide)),
       h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Walk

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibDenseLayer.lean ====
/-
  A dense layer read at an entry, and cut into blocks of rows, for any sizes.

  A dense layer takes an `n × K` matrix `X`, a `K × C` weight matrix `W` and a `1 × C` bias row `B`; its entry
  `(p, q)` is the sum over `k` of `X (p, k) * W (k, q)`, plus `B (0, q)`. Three facts about it:

  * a kernel body spells the layer as a matrix product accumulated into zero, of the operands narrowed to a shorter
    float format (the identity on extended reals), plus the bias row spread down the rows: that is the layer, entry by
    entry;
  * the input matrix is often several matrices set side by side; three pieces set side by side read, at an entry, the
    piece whose columns hold the entry's column;
  * row `off + r` of the layer over whole matrices is row `r` of the layer over the blocks of rows starting at `off`:
    a layer is computed row by row, so a block of its rows needs only the same block of rows of its input. For an
    input made of pieces set side by side, the pieces' blocks set side by side are the block of the whole.
-/
import Mathlib.Algebra.BigOperators.Fin
import Idealize.ShloMosaic.Lib.Pipeline.Value
import Idealize.ShloMosaic.Lib.ValueIdx
import Idealize.ShloMosaic.PureOps.Ideal.Laws
import proofs.«168748_j83425444757686_2_alg».proof.Proof.LibConcatCols
import proofs.«168748_j83425444757686_2_alg».proof.Proof.LibTwoBlocks

noncomputable section

open scoped BigOperators

namespace Cert.Lib.DenseLayer

open Idealize.ShloMosaic Idealize.ShloMosaic.ValueIdx Cert.Lib.ConcatCols Cert.Lib.TwoBlocks

/-! ## The layer -/

/-- Entry `(p, q)` of the dense layer of `X` (`n × K`), `W` (`K × C`) and the bias row `B` (`1 × C`). -/
def denseAt {n K C : ℕ} (X : (⟨2, ![n, K]⟩ : Shape).Idx → EReal) (W : (⟨2, ![K, C]⟩ : Shape).Idx → EReal)
    (B : (⟨2, ![1, C]⟩ : Shape).Idx → EReal) (p : Fin n) (q : Fin C) : EReal :=
  (∑ k : Fin K, X (ix2 p k) * W (ix2 k q)) + B (ix2 (0 : Fin 1) q)

/-- The layer depends on its input only through the entries of row `p`, and on the weights and the bias as
    functions. -/
theorem denseAt_congr {n n' K C : ℕ} (X : (⟨2, ![n, K]⟩ : Shape).Idx → EReal) (X' : (⟨2, ![n', K]⟩ : Shape).Idx → EReal)
    (W W' : (⟨2, ![K, C]⟩ : Shape).Idx → EReal) (B B' : (⟨2, ![1, C]⟩ : Shape).Idx → EReal) (p : Fin n) (p' : Fin n') (q : Fin C)
    (hX : ∀ k : Fin K, X (ix2 p k) = X' (ix2 p' k)) (hW : W = W') (hB : B = B') :
    denseAt X W B p q = denseAt X' W' B' p' q := by
  subst hW; subst hB
  unfold denseAt
  exact congrArg (· + B (ix2 (0 : Fin 1) q)) (Finset.sum_congr rfl fun k _ => by rw [hX k])

/-- A kernel body's spelling of the layer — the product, accumulated into zero, of the input and the weights, both
    narrowed to a shorter float format, plus the bias row spread down the `n` rows — is the layer, entry by entry. -/
theorem body_entry {n K C : ℕ} {ψ : FTy} (D : DotDims ⟨2, ![n, K]⟩ ⟨2, ![K, C]⟩ ⟨2, ![n, C]⟩) (hD : D = DotDims.plain n K C)
    (prec : Option ContractPrecision)
    (X : FVec Ideal ⟨2, ![n, K]⟩ .f32) (W : FVec Ideal ⟨2, ![K, C]⟩ .f32) (B : FVec Ideal ⟨2, ![1, C]⟩ .f32)
    (hlt : ψ.bits < FTy.f32.bits)
    (hW : (⟨2, ![K, C]⟩ : Shape).ShapeCasts ⟨2, ![K, C]⟩) (hB : (⟨2, ![1, C]⟩ : Shape).ShapeCasts ⟨2, ![1, C]⟩)
    (hbc : (⟨2, ![1, C]⟩ : Shape).Broadcasts ⟨2, ![n, C]⟩) (p : Fin n) (q : Fin C) :
    addf (matmul D prec (truncf ψ X hlt) (truncf ψ (shapeCast ⟨2, ![K, C]⟩ W hW) hlt) (constant ⟨2, ![n, C]⟩ .f32 0x00000000#32))
        (broadcastTo ⟨2, ![n, C]⟩ (shapeCast ⟨2, ![1, C]⟩ B hB) hbc) (ix2 p q)
      = denseAt X W B p q := by
  rw [addf_apply, shapeCast_self, shapeCast_self, plain_matmul_zero_apply D hD prec _ _ p q]
  unfold denseAt
  refine congrArg₂ (· + ·) rfl ?_
  refine broadcastTo_apply B hbc (ix2 p q) (ix2 (0 : Fin 1) q) fun a => ?_
  match a with
  | ⟨0, _⟩ => exact (if_pos rfl).symm
  | ⟨1, _⟩ =>
    show q.val = if C = 1 then 0 else q.val
    have hq := q.isLt
    split <;> omega

/-- A host matrix product of an `M × K` by a `K × N` matrix (any dimension numbers that contract the left operand's
    columns with the right operand's rows and batch nothing) reads, at `(p, q)`, the sum over the shared axis. -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  simp only [Host.dotGeneral]
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

/-- A host program's spelling of the layer — the host matrix product of the input and the weights plus an `n × C`
    array `Bn` that holds the bias row in every row — is the layer, entry by entry. -/
theorem host_entry {n K C : ℕ} (D : DotDims ⟨2, ![n, K]⟩ ⟨2, ![K, C]⟩ ⟨2, ![n, C]⟩) (hD : D = DotDims.plain n K C)
    (prec : Option ContractPrecision)
    (X : FVec Ideal ⟨2, ![n, K]⟩ .f32) (W : FVec Ideal ⟨2, ![K, C]⟩ .f32) (Bn : FVec Ideal ⟨2, ![n, C]⟩ .f32)
    (B : FVec Ideal ⟨2, ![1, C]⟩ .f32) (p : Fin n) (q : Fin C) (hB : Bn (ix2 p q) = B (ix2 (0 : Fin 1) q)) :
    addf (Host.dotGeneral D prec X W) Bn (ix2 p q) = denseAt X W B p q := by
  rw [addf_apply, plain_dotGeneral_apply D hD prec X W p q, hB]
  rfl

/-! ## Three matrices set side by side -/

variable {α : Type}

/-- A column of the first of three pieces. -/
theorem concat_cols3_first {a b₁ b₂ b₃ n : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩, ⟨⟨2, ![a, b₃]⟩, x₃⟩] h (ix2 i j) = x₁ (ix2 i k) :=
  concatenate_apply_piece (t := ⟨2, ![a, n]⟩) 1 [⟨⟨2, ![a, b₁]⟩, x₁⟩, ⟨⟨2, ![a, b₂]⟩, x₂⟩, ⟨⟨2, ![a, b₃]⟩, x₃⟩] h (ix2 i j) 0 (by show (0 : ℕ) < 3; omega) ⟨2, ![a, b₁]⟩ x₁ rfl rfl 0 rfl (ix2 i k)
    (fun b hb => by
      match b with
      | ⟨0, _⟩ => rfl
      | ⟨1, _⟩ => exact absurd rfl hb)
    (by show 0 + k.val = j.val; omega)

/-- A column of the second of three pieces. -/
theorem concat_cols3_second {a b₁ b₂ b₃ n : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩, ⟨⟨2, ![a, b₃]⟩, x₃⟩] h (ix2 i j) = x₂ (ix2 i k) :=
  concatenate_apply_piece (t := ⟨2, ![a, n]⟩) 1 [⟨⟨2, ![a, b₁]⟩, x₁⟩, ⟨⟨2, ![a, b₂]⟩, x₂⟩, ⟨⟨2, ![a, b₃]⟩, x₃⟩] h (ix2 i j) 1 (by show (1 : ℕ) < 3; omega) ⟨2, ![a, b₂]⟩ x₂ rfl rfl b₁ (by simp) (ix2 i k)
    (fun b hb => by
      match b with
      | ⟨0, _⟩ => rfl
      | ⟨1, _⟩ => exact absurd rfl hb)
    (by show b₁ + k.val = j.val; exact hk)

/-- A column of the third of three pieces. -/
theorem concat_cols3_third {a b₁ b₂ b₃ n : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, n]⟩ 1)
    (i : Fin a) (j : Fin n) (k : Fin b₃) (hk : b₁ + b₂ + k.val = j.val) :
    concatenate ⟨2, ![a, n]⟩ 1 [⟨⟨2, ![a, b₁]⟩, x₁⟩, ⟨⟨2, ![a, b₂]⟩, x₂⟩, ⟨⟨2, ![a, b₃]⟩, x₃⟩] h (ix2 i j) = x₃ (ix2 i k) :=
  concatenate_apply_piece (t := ⟨2, ![a, n]⟩) 1 [⟨⟨2, ![a, b₁]⟩, x₁⟩, ⟨⟨2, ![a, b₂]⟩, x₂⟩, ⟨⟨2, ![a, b₃]⟩, x₃⟩] h (ix2 i j) 2 (by show (2 : ℕ) < 3; omega) ⟨2, ![a, b₃]⟩ x₃ rfl rfl (b₁ + b₂) (by simp) (ix2 i k)
    (fun b hb => by
      match b with
      | ⟨0, _⟩ => rfl
      | ⟨1, _⟩ => exact absurd rfl hb)
    (by show b₁ + b₂ + k.val = j.val; exact hk)

/-! ## Blocks of rows of matrices set side by side -/

/-- Two pieces: if each block piece holds the rows of its whole piece starting at `off`, the block pieces set side by
    side hold those rows of the whole pieces set side by side. -/
theorem concat2_rows_block {n N b₁ b₂ K : ℕ} (hK : b₁ + b₂ = K) (off : ℕ)
    (A : (⟨2, ![N, b₁]⟩ : Shape).Idx → α) (A' : (⟨2, ![N, b₂]⟩ : Shape).Idx → α)
    (Ab : (⟨2, ![n, b₁]⟩ : Shape).Idx → α) (Ab' : (⟨2, ![n, b₂]⟩ : Shape).Idx → α)
    (h : Shape.Concatenates [⟨2, ![N, b₁]⟩, ⟨2, ![N, b₂]⟩] ⟨2, ![N, K]⟩ 1)
    (hb : Shape.Concatenates [⟨2, ![n, b₁]⟩, ⟨2, ![n, b₂]⟩] ⟨2, ![n, K]⟩ 1)
    (r : Fin n) (R : Fin N)
    (hA : ∀ k : Fin b₁, Ab (ix2 r k) = A (ix2 R k)) (hA' : ∀ k : Fin b₂, Ab' (ix2 r k) = A' (ix2 R k)) (k : Fin K) :
    concatenate ⟨2, ![n, K]⟩ 1 [⟨⟨2, ![n, b₁]⟩, Ab⟩, ⟨⟨2, ![n, b₂]⟩, Ab'⟩] hb (ix2 r k)
      = concatenate ⟨2, ![N, K]⟩ 1 [⟨⟨2, ![N, b₁]⟩, A⟩, ⟨⟨2, ![N, b₂]⟩, A'⟩] h (ix2 R k) := by
  have hk := k.isLt
  by_cases h1 : k.val < b₁
  · rw [concat_cols_left Ab Ab' hb r k ⟨k.val, h1⟩ rfl, concat_cols_left A A' h R k ⟨k.val, h1⟩ rfl]
    exact hA _
  · have h2 : k.val - b₁ < b₂ := by omega
    rw [concat_cols_right Ab Ab' hb r k ⟨k.val - b₁, h2⟩ (by show b₁ + (k.val - b₁) = k.val; omega),
      concat_cols_right A A' h R k ⟨k.val - b₁, h2⟩ (by show b₁ + (k.val - b₁) = k.val; omega)]
    exact hA' _

/-- Three pieces: the same. -/
theorem concat3_rows_block {n N b₁ b₂ b₃ K : ℕ} (hK : b₁ + b₂ + b₃ = K) (off : ℕ)
    (A : (⟨2, ![N, b₁]⟩ : Shape).Idx → α) (A' : (⟨2, ![N, b₂]⟩ : Shape).Idx → α) (A'' : (⟨2, ![N, b₃]⟩ : Shape).Idx → α)
    (Ab : (⟨2, ![n, b₁]⟩ : Shape).Idx → α) (Ab' : (⟨2, ![n, b₂]⟩ : Shape).Idx → α) (Ab'' : (⟨2, ![n, b₃]⟩ : Shape).Idx → α)
    (h : Shape.Concatenates [⟨2, ![N, b₁]⟩, ⟨2, ![N, b₂]⟩, ⟨2, ![N, b₃]⟩] ⟨2, ![N, K]⟩ 1)
    (hb : Shape.Concatenates [⟨2, ![n, b₁]⟩, ⟨2, ![n, b₂]⟩, ⟨2, ![n, b₃]⟩] ⟨2, ![n, K]⟩ 1)
    (r : Fin n) (R : Fin N)
    (hA : ∀ k : Fin b₁, Ab (ix2 r k) = A (ix2 R k)) (hA' : ∀ k : Fin b₂, Ab' (ix2 r k) = A' (ix2 R k))
    (hA'' : ∀ k : Fin b₃, Ab'' (ix2 r k) = A'' (ix2 R k)) (k : Fin K) :
    concatenate ⟨2, ![n, K]⟩ 1 [⟨⟨2, ![n, b₁]⟩, Ab⟩, ⟨⟨2, ![n, b₂]⟩, Ab'⟩, ⟨⟨2, ![n, b₃]⟩, Ab''⟩] hb (ix2 r k)
      = concatenate ⟨2, ![N, K]⟩ 1 [⟨⟨2, ![N, b₁]⟩, A⟩, ⟨⟨2, ![N, b₂]⟩, A'⟩, ⟨⟨2, ![N, b₃]⟩, A''⟩] h (ix2 R k) := by
  have hk := k.isLt
  by_cases h1 : k.val < b₁
  · rw [concat_cols3_first Ab Ab' Ab'' hb r k ⟨k.val, h1⟩ rfl, concat_cols3_first A A' A'' h R k ⟨k.val, h1⟩ rfl]
    exact hA _
  · by_cases h2 : k.val < b₁ + b₂
    · have h3 : k.val - b₁ < b₂ := by omega
      rw [concat_cols3_second Ab Ab' Ab'' hb r k ⟨k.val - b₁, h3⟩ (by show b₁ + (k.val - b₁) = k.val; omega),
        concat_cols3_second A A' A'' h R k ⟨k.val - b₁, h3⟩ (by show b₁ + (k.val - b₁) = k.val; omega)]
      exact hA' _
    · have h3 : k.val - (b₁ + b₂) < b₃ := by omega
      rw [concat_cols3_third Ab Ab' Ab'' hb r k ⟨k.val - (b₁ + b₂), h3⟩ (by show b₁ + b₂ + (k.val - (b₁ + b₂)) = k.val; omega),
        concat_cols3_third A A' A'' h R k ⟨k.val - (b₁ + b₂), h3⟩ (by show b₁ + b₂ + (k.val - (b₁ + b₂)) = k.val; omega)]
      exact hA'' _

end Cert.Lib.DenseLayer

end
-- ==== Proof.Spec.lean ====
/-
  What the program computes, as three whole-array functions.

  A graph layer over 100000 nodes and 1600000 edges. Each of its three dense layers has 64 output columns:

  * the message of edge `e` is `max (x_e W + b, 0)`, where `x_e` is the source node's 64 features followed by the
    edge's 32 features;
  * the new features of edge `e` are `x_e W + b`, where `x_e` is the source node's 64 features, the edge's 32 features
    and the 64 averaged messages of the edge's destination node;
  * the new features of node `v` are `x_v W + b`, where `x_v` is the node's own 64 features followed by its 64
    averaged messages.

  Each is stated with its input rows as the pieces set side by side, so that an entry is one sum over the joined
  columns. The zero of the message layer's maximum is kept as the float word it is printed with.
-/
import proofs.«168748_j83425444757686_2_alg».proof.Proof.LibDenseLayer

noncomputable section

namespace Cert.Spec

open Idealize.ShloMosaic Idealize.ShloMosaic.ValueIdx Cert.Lib.DenseLayer

theorem cat96 : Shape.Concatenates [⟨2, ![1600000, 64]⟩, ⟨2, ![1600000, 32]⟩] ⟨2, ![1600000, 96]⟩ 1 := by decide
theorem cat160 : Shape.Concatenates [⟨2, ![1600000, 64]⟩, ⟨2, ![1600000, 32]⟩, ⟨2, ![1600000, 64]⟩] ⟨2, ![1600000, 160]⟩ 1 := by decide
theorem cat128 : Shape.Concatenates [⟨2, ![100000, 64]⟩, ⟨2, ![100000, 64]⟩] ⟨2, ![100000, 128]⟩ 1 := by decide

/-- The messages: one row per edge, from the source node's features `S` and the edge's features `E`. -/
def message (S : (⟨2, ![1600000, 64]⟩ : Shape).Idx → EReal) (E : (⟨2, ![1600000, 32]⟩ : Shape).Idx → EReal)
    (W : (⟨2, ![96, 64]⟩ : Shape).Idx → EReal) (B : (⟨2, ![1, 64]⟩ : Shape).Idx → EReal) : (⟨2, ![1600000, 64]⟩ : Shape).Idx → EReal :=
  fun i => max (denseAt (concatenate ⟨2, ![1600000, 96]⟩ 1 [⟨⟨2, ![1600000, 64]⟩, S⟩, ⟨⟨2, ![1600000, 32]⟩, E⟩] cat96) W B (i 0) (i 1))
    (Ideal.ofBits .f32 0x00000000#32)

/-- The edges' new features, from the source node's features `S`, the edge's features `E` and the destination node's
    averaged messages `H`. -/
def edge (S : (⟨2, ![1600000, 64]⟩ : Shape).Idx → EReal) (E : (⟨2, ![1600000, 32]⟩ : Shape).Idx → EReal)
    (H : (⟨2, ![1600000, 64]⟩ : Shape).Idx → EReal)
    (W : (⟨2, ![160, 64]⟩ : Shape).Idx → EReal) (B : (⟨2, ![1, 64]⟩ : Shape).Idx → EReal) : (⟨2, ![1600000, 64]⟩ : Shape).Idx → EReal :=
  fun i => denseAt (concatenate ⟨2, ![1600000, 160]⟩ 1 [⟨⟨2, ![1600000, 64]⟩, S⟩, ⟨⟨2, ![1600000, 32]⟩, E⟩, ⟨⟨2, ![1600000, 64]⟩, H⟩] cat160)
    W B (i 0) (i 1)

/-- The nodes' new features, from the node's own features `D` and its averaged messages `H`. -/
def node (D : (⟨2, ![100000, 64]⟩ : Shape).Idx → EReal) (H : (⟨2, ![100000, 64]⟩ : Shape).Idx → EReal)
    (W : (⟨2, ![128, 64]⟩ : Shape).Idx → EReal) (B : (⟨2, ![1, 64]⟩ : Shape).Idx → EReal) : (⟨2, ![100000, 64]⟩ : Shape).Idx → EReal :=
  fun i => denseAt (concatenate ⟨2, ![100000, 128]⟩ 1 [⟨⟨2, ![100000, 64]⟩, D⟩, ⟨⟨2, ![100000, 64]⟩, H⟩] cat128) W B (i 0) (i 1)

end Cert.Spec

end
-- ==== Proof.MessageLayer.lean ====
/-
  The message layer's pipeline writes the message layer.

  The pipeline runs 200 grid points. Point `t` stages rows `8000 t … 8000 t + 7999` of the source nodes' features and
  of the edges' features, the whole 96 × 64 weight matrix and the whole bias row, and writes back rows
  `8000 t … 8000 t + 7999` of the messages. The body sets the two staged blocks side by side, applies one dense layer
  and takes the larger of the result and zero. Both are computed row by row, so the block written at point `t` is rows
  `8000 t …` of the message layer over the whole arrays; the 200 blocks tile the 1600000 rows, so the message array
  ends holding that layer. Everything is stated at any contents `V` of the buffers when the pipeline starts.
-/
import proofs.«168748_j83425444757686_2_alg».proof.Proof.Gen.KernelIdeal.Frame
import proofs.«168748_j83425444757686_2_alg».proof.Proof.Spec
import Idealize.ShloMosaic.Lib.Pipeline.Value

set_option maxRecDepth 16384

noncomputable section

namespace Cert.KernelIdeal.MessageLayer

open Idealize.ShloMosaic Idealize.ShloMosaic.TcCoe Idealize.ShloMosaic.ValueIdx Idealize.SL.Sem
open Idealize.ShloMosaic.Pipeline (Dat)
open Cert.KernelIdeal Cert.KernelIdeal.Gen Cert.Lib.DenseLayer

variable (V : (c : Dev nD) → (b : Ref sig .tc) → Buf (Elt Ideal) ((c : Thread nD τ).loc b))

theorem origin : (![0, 0] : Fin 2 → Nat) = fun _ => 0 := funext fun a => by fin_cases a <;> rfl

/-- The body's stored value, operation by operation. -/
theorem payload_eq (x0 : FVec Ideal S8000x64 .f32) (x1 : FVec Ideal S8000x32 .f32) (xw : FVec Ideal S96x64 .f32) (xb : FVec Ideal S1x64 .f32) :
    k0_pay1 (F := Ideal) x0 x1 xw xb
      = maximumf (addf (matmul dot_S8000x96_S96x64_S8000x64_1_0_0_1_n_n none
          (truncf .bf16 (concatenate S8000x96 1 [⟨S8000x64, shapeCast S8000x64 x0 shapeCasts_S8000x64_S8000x64⟩, ⟨S8000x32, x1⟩]
            concatenates_S8000x64_S8000x32_S8000x96_d1) bitsLt_bf16_f32)
          (truncf .bf16 (shapeCast S96x64 xw shapeCasts_S96x64_S96x64) bitsLt_bf16_f32) (constant S8000x64 .f32 0x00000000#32))
        (broadcastTo S8000x64 (shapeCast S1x64 xb shapeCasts_S1x64_S1x64) broadcasts_S1x64_S8000x64))
        (broadcast S8000x64 (Scalar.ofBits .f32 0x00000000#32)) := rfl

/-- The body's stored value at row `r`, column `q`: the larger of zero and the dense layer of the two staged blocks set side by side. -/
theorem payload_entry (x0 : FVec Ideal S8000x64 .f32) (x1 : FVec Ideal S8000x32 .f32) (xw : FVec Ideal S96x64 .f32) (xb : FVec Ideal S1x64 .f32)
    (r : Fin 8000) (q : Fin 64) :
    k0_pay1 (F := Ideal) x0 x1 xw xb (ix2 r q)
      = max (denseAt (concatenate S8000x96 1 [⟨S8000x64, x0⟩, ⟨S8000x32, x1⟩] concatenates_S8000x64_S8000x32_S8000x96_d1) xw xb r q) (Ideal.ofBits .f32 0x00000000#32) := by
  rw [payload_eq, shapeCast_self x0]
  show max _ _ = max _ _
  exact congrArg (max · (Ideal.ofBits .f32 0x00000000#32)) (body_entry dot_S8000x96_S96x64_S8000x64_1_0_0_1_n_n rfl none _ xw xb bitsLt_bf16_f32 shapeCasts_S96x64_S96x64
    shapeCasts_S1x64_S1x64 broadcasts_S1x64_S8000x64 r q)

/-- The windows' block indices at point `t`: the row-blocked windows are at block `t`, the weights and the bias at
    their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of the staged block of the source nodes' features is row `8000 t + r` of the array. -/
theorem read_src (c : Dev nD) (t : Fin cfg0.N) (r : Fin 8000) (R : Fin 1600000) (hR : R.val = t.val * 8000 + r.val) (k : Fin 64) :
    iblk0 V c 0 t (ix2 r k) = V c main_v6 (ix2 R k) := by
  obtain ⟨e0, e1, -⟩ := block_indices t
  show V c main_v6 (((cfg0.win 0).blk t).view.emb (ix2 r k)) = V c main_v6 (ix2 R k)
  refine congrArg (V c main_v6) (funext fun a => Fin.ext ?_)
  match a with
  | ⟨0, _⟩ => show win0_0.index t (0 : Fin 2) * 8000 + 1 * r.val = R.val; omega
  | ⟨1, _⟩ => show win0_0.index t (1 : Fin 2) * 64 + 1 * k.val = k.val; omega

/-- Row `r` of the staged block of the edges' features is row `8000 t + r` of the array. -/
theorem read_efeat (c : Dev nD) (t : Fin cfg0.N) (r : Fin 8000) (R : Fin 1600000) (hR : R.val = t.val * 8000 + r.val) (k : Fin 32) :
    iblk0 V c 1 t (ix2 r k) = V c main_arg2 (ix2 R k) := by
  obtain ⟨-, -, e0, e1, -⟩ := block_indices t
  show V c main_arg2 (((cfg0.win 1).blk t).view.emb (ix2 r k)) = V c main_arg2 (ix2 R k)
  refine congrArg (V c main_arg2) (funext fun a => Fin.ext ?_)
  match a with
  | ⟨0, _⟩ => show win0_1.index t (0 : Fin 2) * 8000 + 1 * r.val = R.val; omega
  | ⟨1, _⟩ => show win0_1.index t (1 : Fin 2) * 32 + 1 * k.val = k.val; omega

/-- The staged weights are the whole weight matrix. -/
theorem read_weights (c : Dev nD) (t : Fin cfg0.N) : iblk0 V c 2 t = V c main_v7 := by
  obtain ⟨-, -, -, -, e0, e1, -⟩ := block_indices t
  funext y
  show V c main_v7 (((cfg0.win 2).blk t).view.emb y) = V c main_v7 y
  refine congrArg (V c main_v7) (funext fun a => Fin.ext ?_)
  match a with
  | ⟨0, _⟩ => show win0_2.index t (0 : Fin 2) * 96 + 1 * (y 0).val = (y 0).val; omega
  | ⟨1, _⟩ => show win0_2.index t (1 : Fin 2) * 64 + 1 * (y 1).val = (y 1).val; omega

/-- The staged bias is the whole bias row. -/
theorem read_bias (c : Dev nD) (t : Fin cfg0.N) : iblk0 V c 3 t = V c main_v8 := by
  obtain ⟨-, -, -, -, -, -, e0, e1, -⟩ := block_indices t
  funext y
  show V c main_v8 (((cfg0.win 3).blk t).view.emb y) = V c main_v8 y
  refine congrArg (V c main_v8) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- What point `t` writes back is block `t` of the layer over the whole arrays. -/
theorem flushed_eq (c : Dev nD) (t : Fin cfg0.N) :
    (dat0 V c).flushed 4 t = ((cfg0.win 4).blk t).view.read (Elt Ideal)
      (Cert.Spec.message (V c main_v6) (V c main_arg2) (V c main_v7) (V c main_v8)) := by
  show (cfg0.win 4).cut (grid0.coords t) ((dat0 V c).after 4 t) = _
  rw [after0_4]
  unfold out0_4
  rw [View.canon_unit_zero origin]
  simp only [View.ld_unit_zero (S := S8000x64) origin, View.ld_unit_zero (S := S8000x32) origin, View.ld_unit_zero (S := S96x64) origin, View.ld_unit_zero (S := S1x64) origin]
  funext j
  obtain ⟨r, q, rfl⟩ : ∃ (r : Fin 8000) (q : Fin 64), j = ix2 r q := ⟨j 0, j 1, eq_ix2 j⟩
  have hN : grid0.N = 200 := N_0
  have htl : t.val < 200 := by have h : t.val < grid0.N := t.isLt; omega
  have hr := r.isLt
  obtain ⟨-, -, -, -, -, -, -, -, e8, e9⟩ := block_indices t
  have hRlt : t.val * 8000 + r.val < 1600000 := by omega
  have hemb : ((cfg0.win 4).blk t).view.emb (ix2 r q) = ix2 (⟨t.val * 8000 + r.val, hRlt⟩ : Fin 1600000) q := by
    funext a; apply Fin.ext
    match a with
    | ⟨0, _⟩ => show win0_4.index t (0 : Fin 2) * 8000 + 1 * r.val = t.val * 8000 + r.val; omega
    | ⟨1, _⟩ => show win0_4.index t (1 : Fin 2) * 64 + 1 * q.val = q.val; omega
  show k0_pay1 (F := Ideal) (iblk0 V c 0 t) (iblk0 V c 1 t) (iblk0 V c 2 t) (iblk0 V c 3 t) (ix2 r q)
      = Cert.Spec.message (V c main_v6) (V c main_arg2) (V c main_v7) (V c main_v8) (((cfg0.win 4).blk t).view.emb (ix2 r q))
  rw [hemb]
  refine (payload_entry (iblk0 V c 0 t) (iblk0 V c 1 t) (iblk0 V c 2 t) (iblk0 V c 3 t) r q).trans ?_
  unfold Cert.Spec.message
  show max _ _ = max _ _
  refine congrArg (max · (Ideal.ofBits .f32 0x00000000#32)) ?_
  refine denseAt_congr _ _ (iblk0 V c 2 t) (V c main_v7) (iblk0 V c 3 t) (V c main_v8) r
    (⟨t.val * 8000 + r.val, hRlt⟩ : Fin 1600000) q (fun k => ?_) (read_weights V c t) (read_bias V c t)
  exact concat2_rows_block (by norm_num : 64 + 32 = 96) (t.val * 8000) (V c main_v6) (V c main_arg2) (iblk0 V c 0 t) (iblk0 V c 1 t)
    Cert.Spec.cat96 concatenates_S8000x64_S8000x32_S8000x96_d1 r ⟨t.val * 8000 + r.val, hRlt⟩
    (fun k' => read_src V c t r _ rfl k') (fun k' => read_efeat V c t r _ rfl k') k

/-- An index of the result array is in point `t`'s block iff each coordinate is in the block's range on its axis. -/
theorem mem_blk (t : Fin cfg0.N) (i : S1600000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v13).slice (win0_4.rect t)).set ↔ _
  rw [View.set_slice_whole, Rect.mem_set_unit]
  exact Iff.rfl

/-- Every row of the result is in some point's block: row `i` in point `i / 8000`'s. -/
theorem cover (i : S1600000x64.Idx) : ∃ t : Fin cfg0.N, (cfg0.win 4).flush t = true ∧ i ∈ ((cfg0.win 4).blk t).view.set := by
  have hN : grid0.N = 200 := N_0
  have hi0 : (i 0).val < 1600000 := (i 0).isLt
  have hi1 : (i 1).val < 64 := (i 1).isLt
  have htN : (i 0).val / 8000 < cfg0.N := by show (i 0).val / 8000 < grid0.N; omega
  refine ⟨⟨(i 0).val / 8000, htN⟩, flush0_4 _, ?_⟩
  obtain ⟨-, -, -, -, -, -, -, -, e8, e9⟩ := block_indices ⟨(i 0).val / 8000, htN⟩
  rw [mem_blk]
  intro a
  match a with
  | ⟨0, _⟩ =>
    show win0_4.index ⟨(i 0).val / 8000, htN⟩ (0 : Fin 2) * 8000 ≤ (i 0).val ∧ (i 0).val < win0_4.index ⟨(i 0).val / 8000, htN⟩ (0 : Fin 2) * 8000 + 8000
    rw [e8]; show (i 0).val / 8000 * 8000 ≤ (i 0).val ∧ (i 0).val < (i 0).val / 8000 * 8000 + 8000; omega
  | ⟨1, _⟩ =>
    show win0_4.index ⟨(i 0).val / 8000, htN⟩ (1 : Fin 2) * 64 ≤ (i 1).val ∧ (i 1).val < win0_4.index ⟨(i 0).val / 8000, htN⟩ (1 : Fin 2) * 64 + 64
    rw [e9]; omega

/-- The result array after the pipeline: the layer of the arrays as the pipeline found them. -/
theorem final (c : Dev nD) :
    (dat0 V c).arrAt 4 cfg0.N = Cert.Spec.message (V c main_v6) (V c main_arg2) (V c main_v7) (V c main_v8) :=
  (dat0 V c).arrAt_eq_of_cover 4 _ (fun t _ => flushed_eq V c t) cover

end Cert.KernelIdeal.MessageLayer

end
-- ==== Proof.EdgeLayer.lean ====
/-
  The edge layer's pipeline writes the edge layer.

  The pipeline runs 200 grid points. Point `t` stages rows `8000 t … 8000 t + 7999` of the source nodes' features, of
  the edges' features and of the destination nodes' averaged messages, the whole 160 × 64 weight matrix and the whole
  bias row, and writes back rows `8000 t … 8000 t + 7999` of the result. The body sets the three staged blocks side by
  side and applies one dense layer. A dense layer is computed row by row, so the block written at point `t` is rows
  `8000 t …` of the dense layer over the whole arrays; the 200 blocks tile the 1600000 rows, so the result array ends
  holding that layer. Everything is stated at any contents `V` of the buffers when the pipeline starts.
-/
import proofs.«168748_j83425444757686_2_alg».proof.Proof.Gen.KernelIdeal.Frame
import proofs.«168748_j83425444757686_2_alg».proof.Proof.Spec
import Idealize.ShloMosaic.Lib.Pipeline.Value

set_option maxRecDepth 16384

noncomputable section

namespace Cert.KernelIdeal.EdgeLayer

open Idealize.ShloMosaic Idealize.ShloMosaic.TcCoe Idealize.ShloMosaic.ValueIdx Idealize.SL.Sem
open Idealize.ShloMosaic.Pipeline (Dat)
open Cert.KernelIdeal Cert.KernelIdeal.Gen Cert.Lib.DenseLayer

variable (V : (c : Dev nD) → (b : Ref sig .tc) → Buf (Elt Ideal) ((c : Thread nD τ).loc b))

theorem origin : (![0, 0] : Fin 2 → Nat) = fun _ => 0 := funext fun a => by fin_cases a <;> rfl

/-- The body's stored value, operation by operation. -/
theorem payload_eq (x0 : FVec Ideal S8000x64 .f32) (x1 : FVec Ideal S8000x32 .f32) (x2 : FVec Ideal S8000x64 .f32) (xw : FVec Ideal S160x64 .f32) (xb : FVec Ideal S1x64 .f32) :
    k1_pay1 (F := Ideal) x0 x1 x2 xw xb
      = addf (matmul dot_S8000x160_S160x64_S8000x64_1_0_0_1_n_n none
          (truncf .bf16 (concatenate S8000x160 1 [⟨S8000x64, shapeCast S8000x64 x0 shapeCasts_S8000x64_S8000x64⟩, ⟨S8000x32, x1⟩, ⟨S8000x64, shapeCast S8000x64 x2 shapeCasts_S8000x64_S8000x64⟩]
            concatenates_S8000x64_S8000x32_S8000x64_S8000x160_d1) bitsLt_bf16_f32)
          (truncf .bf16 (shapeCast S160x64 xw shapeCasts_S160x64_S160x64) bitsLt_bf16_f32) (constant S8000x64 .f32 0x00000000#32))
        (broadcastTo S8000x64 (shapeCast S1x64 xb shapeCasts_S1x64_S1x64) broadcasts_S1x64_S8000x64) := rfl

/-- The body's stored value at row `r`, column `q`: the dense layer of the three staged blocks set side by side. -/
theorem payload_entry (x0 : FVec Ideal S8000x64 .f32) (x1 : FVec Ideal S8000x32 .f32) (x2 : FVec Ideal S8000x64 .f32) (xw : FVec Ideal S160x64 .f32) (xb : FVec Ideal S1x64 .f32)
    (r : Fin 8000) (q : Fin 64) :
    k1_pay1 (F := Ideal) x0 x1 x2 xw xb (ix2 r q)
      = denseAt (concatenate S8000x160 1 [⟨S8000x64, x0⟩, ⟨S8000x32, x1⟩, ⟨S8000x64, x2⟩] concatenates_S8000x64_S8000x32_S8000x64_S8000x160_d1) xw xb r q := by
  rw [payload_eq, shapeCast_self x0, shapeCast_self x2]
  exact body_entry dot_S8000x160_S160x64_S8000x64_1_0_0_1_n_n rfl none _ xw xb bitsLt_bf16_f32 shapeCasts_S160x64_S160x64
    shapeCasts_S1x64_S1x64 broadcasts_S1x64_S8000x64 r q

/-- The windows' block indices at point `t`: the row-blocked windows are at block `t`, the weights and the bias at
    their one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of the staged block of the source nodes' features is row `8000 t + r` of the array. -/
theorem read_src (c : Dev nD) (t : Fin cfg1.N) (r : Fin 8000) (R : Fin 1600000) (hR : R.val = t.val * 8000 + r.val) (k : Fin 64) :
    iblk1 V c 0 t (ix2 r k) = V c main_v6 (ix2 R k) := by
  obtain ⟨e0, e1, -⟩ := block_indices t
  show V c main_v6 (((cfg1.win 0).blk t).view.emb (ix2 r k)) = V c main_v6 (ix2 R k)
  refine congrArg (V c main_v6) (funext fun a => Fin.ext ?_)
  match a with
  | ⟨0, _⟩ => show win1_0.index t (0 : Fin 2) * 8000 + 1 * r.val = R.val; omega
  | ⟨1, _⟩ => show win1_0.index t (1 : Fin 2) * 64 + 1 * k.val = k.val; omega

/-- Row `r` of the staged block of the edges' features is row `8000 t + r` of the array. -/
theorem read_efeat (c : Dev nD) (t : Fin cfg1.N) (r : Fin 8000) (R : Fin 1600000) (hR : R.val = t.val * 8000 + r.val) (k : Fin 32) :
    iblk1 V c 1 t (ix2 r k) = V c main_arg2 (ix2 R k) := by
  obtain ⟨-, -, e0, e1, -⟩ := block_indices t
  show V c main_arg2 (((cfg1.win 1).blk t).view.emb (ix2 r k)) = V c main_arg2 (ix2 R k)
  refine congrArg (V c main_arg2) (funext fun a => Fin.ext ?_)
  match a with
  | ⟨0, _⟩ => show win1_1.index t (0 : Fin 2) * 8000 + 1 * r.val = R.val; omega
  | ⟨1, _⟩ => show win1_1.index t (1 : Fin 2) * 32 + 1 * k.val = k.val; omega

/-- Row `r` of the staged block of the destination nodes' averaged messages is row `8000 t + r` of the array. -/
theorem read_avg (c : Dev nD) (t : Fin cfg1.N) (r : Fin 8000) (R : Fin 1600000) (hR : R.val = t.val * 8000 + r.val) (k : Fin 64) :
    iblk1 V c 2 t (ix2 r k) = V c main_v32 (ix2 R k) := by
  obtain ⟨-, -, -, -, e0, e1, -⟩ := block_indices t
  show V c main_v32 (((cfg1.win 2).blk t).view.emb (ix2 r k)) = V c main_v32 (ix2 R k)
  refine congrArg (V c main_v32) (funext fun a => Fin.ext ?_)
  match a with
  | ⟨0, _⟩ => show win1_2.index t (0 : Fin 2) * 8000 + 1 * r.val = R.val; omega
  | ⟨1, _⟩ => show win1_2.index t (1 : Fin 2) * 64 + 1 * k.val = k.val; omega

/-- The staged weights are the whole weight matrix. -/
theorem read_weights (c : Dev nD) (t : Fin cfg1.N) : iblk1 V c 3 t = V c main_v11 := by
  obtain ⟨-, -, -, -, -, -, e0, e1, -⟩ := block_indices t
  funext y
  show V c main_v11 (((cfg1.win 3).blk t).view.emb y) = V c main_v11 y
  refine congrArg (V c main_v11) (funext fun a => Fin.ext ?_)
  match a with
  | ⟨0, _⟩ => show win1_3.index t (0 : Fin 2) * 160 + 1 * (y 0).val = (y 0).val; omega
  | ⟨1, _⟩ => show win1_3.index t (1 : Fin 2) * 64 + 1 * (y 1).val = (y 1).val; omega

/-- The staged bias is the whole bias row. -/
theorem read_bias (c : Dev nD) (t : Fin cfg1.N) : iblk1 V c 4 t = V c main_v12 := by
  obtain ⟨-, -, -, -, -, -, -, -, e0, e1, -⟩ := block_indices t
  funext y
  show V c main_v12 (((cfg1.win 4).blk t).view.emb y) = V c main_v12 y
  refine congrArg (V c main_v12) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- What point `t` writes back is block `t` of the layer over the whole arrays. -/
theorem flushed_eq (c : Dev nD) (t : Fin cfg1.N) :
    (dat1 V c).flushed 5 t = ((cfg1.win 5).blk t).view.read (Elt Ideal)
      (Cert.Spec.edge (V c main_v6) (V c main_arg2) (V c main_v32) (V c main_v11) (V c main_v12)) := by
  show (cfg1.win 5).cut (grid1.coords t) ((dat1 V c).after 5 t) = _
  rw [after1_5]
  unfold out1_5
  rw [View.canon_unit_zero origin]
  simp only [View.ld_unit_zero (S := S8000x64) origin, View.ld_unit_zero (S := S8000x32) origin, View.ld_unit_zero (S := S160x64) origin, View.ld_unit_zero (S := S1x64) origin]
  funext j
  obtain ⟨r, q, rfl⟩ : ∃ (r : Fin 8000) (q : Fin 64), j = ix2 r q := ⟨j 0, j 1, eq_ix2 j⟩
  have hN : grid1.N = 200 := N_1
  have htl : t.val < 200 := by have h : t.val < grid1.N := t.isLt; omega
  have hr := r.isLt
  obtain ⟨-, -, -, -, -, -, -, -, -, -, e8, e9⟩ := block_indices t
  have hRlt : t.val * 8000 + r.val < 1600000 := by omega
  have hemb : ((cfg1.win 5).blk t).view.emb (ix2 r q) = ix2 (⟨t.val * 8000 + r.val, hRlt⟩ : Fin 1600000) q := by
    funext a; apply Fin.ext
    match a with
    | ⟨0, _⟩ => show win1_5.index t (0 : Fin 2) * 8000 + 1 * r.val = t.val * 8000 + r.val; omega
    | ⟨1, _⟩ => show win1_5.index t (1 : Fin 2) * 64 + 1 * q.val = q.val; omega
  show k1_pay1 (F := Ideal) (iblk1 V c 0 t) (iblk1 V c 1 t) (iblk1 V c 2 t) (iblk1 V c 3 t) (iblk1 V c 4 t) (ix2 r q)
      = Cert.Spec.edge (V c main_v6) (V c main_arg2) (V c main_v32) (V c main_v11) (V c main_v12) (((cfg1.win 5).blk t).view.emb (ix2 r q))
  rw [hemb]
  refine (payload_entry (iblk1 V c 0 t) (iblk1 V c 1 t) (iblk1 V c 2 t) (iblk1 V c 3 t) (iblk1 V c 4 t) r q).trans ?_
  unfold Cert.Spec.edge
  refine denseAt_congr _ _ (iblk1 V c 3 t) (V c main_v11) (iblk1 V c 4 t) (V c main_v12) r
    (⟨t.val * 8000 + r.val, hRlt⟩ : Fin 1600000) q (fun k => ?_) (read_weights V c t) (read_bias V c t)
  exact concat3_rows_block (by norm_num : 64 + 32 + 64 = 160) (t.val * 8000) (V c main_v6) (V c main_arg2) (V c main_v32) (iblk1 V c 0 t) (iblk1 V c 1 t) (iblk1 V c 2 t)
    Cert.Spec.cat160 concatenates_S8000x64_S8000x32_S8000x64_S8000x160_d1 r ⟨t.val * 8000 + r.val, hRlt⟩
    (fun k' => read_src V c t r _ rfl k') (fun k' => read_efeat V c t r _ rfl k') (fun k' => read_avg V c t r _ rfl k') k

/-- An index of the result array is in point `t`'s block iff each coordinate is in the block's range on its axis. -/
theorem mem_blk (t : Fin cfg1.N) (i : S1600000x64.Idx) :
    i ∈ ((cfg1.win 5).blk t).view.set ↔ ∀ a : Fin 2, win1_5.index t a * S8000x64.size a ≤ (i a).val ∧ (i a).val < win1_5.index t a * S8000x64.size a + S8000x64.size a := by
  show i ∈ ((View.whole main_v33).slice (win1_5.rect t)).set ↔ _
  rw [View.set_slice_whole, Rect.mem_set_unit]
  exact Iff.rfl

/-- Every row of the result is in some point's block: row `i` in point `i / 8000`'s. -/
theorem cover (i : S1600000x64.Idx) : ∃ t : Fin cfg1.N, (cfg1.win 5).flush t = true ∧ i ∈ ((cfg1.win 5).blk t).view.set := by
  have hN : grid1.N = 200 := N_1
  have hi0 : (i 0).val < 1600000 := (i 0).isLt
  have hi1 : (i 1).val < 64 := (i 1).isLt
  have htN : (i 0).val / 8000 < cfg1.N := by show (i 0).val / 8000 < grid1.N; omega
  refine ⟨⟨(i 0).val / 8000, htN⟩, flush1_5 _, ?_⟩
  obtain ⟨-, -, -, -, -, -, -, -, -, -, e8, e9⟩ := block_indices ⟨(i 0).val / 8000, htN⟩
  rw [mem_blk]
  intro a
  match a with
  | ⟨0, _⟩ =>
    show win1_5.index ⟨(i 0).val / 8000, htN⟩ (0 : Fin 2) * 8000 ≤ (i 0).val ∧ (i 0).val < win1_5.index ⟨(i 0).val / 8000, htN⟩ (0 : Fin 2) * 8000 + 8000
    rw [e8]; show (i 0).val / 8000 * 8000 ≤ (i 0).val ∧ (i 0).val < (i 0).val / 8000 * 8000 + 8000; omega
  | ⟨1, _⟩ =>
    show win1_5.index ⟨(i 0).val / 8000, htN⟩ (1 : Fin 2) * 64 ≤ (i 1).val ∧ (i 1).val < win1_5.index ⟨(i 0).val / 8000, htN⟩ (1 : Fin 2) * 64 + 64
    rw [e9]; omega

/-- The result array after the pipeline: the layer of the arrays as the pipeline found them. -/
theorem final (c : Dev nD) :
    (dat1 V c).arrAt 5 cfg1.N = Cert.Spec.edge (V c main_v6) (V c main_arg2) (V c main_v32) (V c main_v11) (V c main_v12) :=
  (dat1 V c).arrAt_eq_of_cover 5 _ (fun t _ => flushed_eq V c t) cover

end Cert.KernelIdeal.EdgeLayer

end
-- ==== Proof.NodeLayer.lean ====
/-
  The node layer's pipeline writes the node layer.

  The pipeline runs 20 grid points. Point `t` stages rows `5000 t … 5000 t + 4999` of the nodes' own features and of
  their averaged messages, the whole 128 × 64 weight matrix and the whole bias row, and writes back rows
  `5000 t … 5000 t + 4999` of the result. The body sets the two staged blocks side by side and applies one dense layer.
  A dense layer is computed row by row, so the block written at point `t` is rows `5000 t …` of the dense layer over the
  whole arrays; the 20 blocks tile the 100000 rows, so the result array ends holding that layer. Everything is stated
  at any contents `V` of the buffers when the pipeline starts.
-/
import proofs.«168748_j83425444757686_2_alg».proof.Proof.Gen.KernelIdeal.Frame
import proofs.«168748_j83425444757686_2_alg».proof.Proof.Spec
import Idealize.ShloMosaic.Lib.Pipeline.Value

set_option maxRecDepth 16384

noncomputable section

namespace Cert.KernelIdeal.NodeLayer

open Idealize.ShloMosaic Idealize.ShloMosaic.TcCoe Idealize.ShloMosaic.ValueIdx Idealize.SL.Sem
open Idealize.ShloMosaic.Pipeline (Dat)
open Cert.KernelIdeal Cert.KernelIdeal.Gen Cert.Lib.DenseLayer

variable (V : (c : Dev nD) → (b : Ref sig .tc) → Buf (Elt Ideal) ((c : Thread nD τ).loc b))

theorem origin : (![0, 0] : Fin 2 → Nat) = fun _ => 0 := funext fun a => by fin_cases a <;> rfl

/-- The body's stored value, operation by operation. -/
theorem payload_eq (x0 x1 : FVec Ideal S5000x64 .f32) (x2 : FVec Ideal S128x64 .f32) (x3 : FVec Ideal S1x64 .f32) :
    k2_pay1 (F := Ideal) x0 x1 x2 x3
      = addf (matmul dot_S5000x128_S128x64_S5000x64_1_0_0_1_n_n none
          (truncf .bf16 (concatenate S5000x128 1 [⟨S5000x64, x0⟩, ⟨S5000x64, shapeCast S5000x64 x1 shapeCasts_S5000x64_S5000x64⟩]
            concatenates_S5000x64_S5000x64_S5000x128_d1) bitsLt_bf16_f32)
          (truncf .bf16 (shapeCast S128x64 x2 shapeCasts_S128x64_S128x64) bitsLt_bf16_f32) (constant S5000x64 .f32 0x00000000#32))
        (broadcastTo S5000x64 (shapeCast S1x64 x3 shapeCasts_S1x64_S1x64) broadcasts_S1x64_S5000x64) := rfl

/-- The body's stored value at row `r`, column `q`: the dense layer of the two staged blocks set side by side. -/
theorem payload_entry (x0 x1 : FVec Ideal S5000x64 .f32) (x2 : FVec Ideal S128x64 .f32) (x3 : FVec Ideal S1x64 .f32)
    (r : Fin 5000) (q : Fin 64) :
    k2_pay1 (F := Ideal) x0 x1 x2 x3 (ix2 r q)
      = denseAt (concatenate S5000x128 1 [⟨S5000x64, x0⟩, ⟨S5000x64, x1⟩] concatenates_S5000x64_S5000x64_S5000x128_d1) x2 x3 r q := by
  rw [payload_eq, shapeCast_self x1]
  exact body_entry dot_S5000x128_S128x64_S5000x64_1_0_0_1_n_n rfl none _ x2 x3 bitsLt_bf16_f32 shapeCasts_S128x64_S128x64
    shapeCasts_S1x64_S1x64 broadcasts_S1x64_S5000x64 r q

/-- The five windows' block indices at point `t`: the row-blocked windows are at block `t`, the weights and the bias
    at their one block. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `r` of the staged block of the nodes' own features is row `5000 t + r` of the array. -/
theorem read_own (c : Dev nD) (t : Fin cfg2.N) (r : Fin 5000) (R : Fin 100000) (hR : R.val = t.val * 5000 + r.val) (k : Fin 64) :
    iblk2 V c 0 t (ix2 r k) = V c main_arg1 (ix2 R k) := by
  obtain ⟨e0, e1, -⟩ := block_indices t
  show V c main_arg1 (((cfg2.win 0).blk t).view.emb (ix2 r k)) = V c main_arg1 (ix2 R k)
  refine congrArg (V c main_arg1) (funext fun a => Fin.ext ?_)
  match a with
  | ⟨0, _⟩ => show win2_0.index t (0 : Fin 2) * 5000 + 1 * r.val = R.val; omega
  | ⟨1, _⟩ => show win2_0.index t (1 : Fin 2) * 64 + 1 * k.val = k.val; omega

/-- Row `r` of the staged block of the averaged messages is row `5000 t + r` of the array. -/
theorem read_avg (c : Dev nD) (t : Fin cfg2.N) (r : Fin 5000) (R : Fin 100000) (hR : R.val = t.val * 5000 + r.val) (k : Fin 64) :
    iblk2 V c 1 t (ix2 r k) = V c main_v25 (ix2 R k) := by
  obtain ⟨-, -, e0, e1, -⟩ := block_indices t
  show V c main_v25 (((cfg2.win 1).blk t).view.emb (ix2 r k)) = V c main_v25 (ix2 R k)
  refine congrArg (V c main_v25) (funext fun a => Fin.ext ?_)
  match a with
  | ⟨0, _⟩ => show win2_1.index t (0 : Fin 2) * 5000 + 1 * r.val = R.val; omega
  | ⟨1, _⟩ => show win2_1.index t (1 : Fin 2) * 64 + 1 * k.val = k.val; omega

/-- The staged weights are the whole weight matrix. -/
theorem read_weights (c : Dev nD) (t : Fin cfg2.N) : iblk2 V c 2 t = V c main_v9 := by
  obtain ⟨-, -, -, -, e0, e1, -⟩ := block_indices t
  funext y
  show V c main_v9 (((cfg2.win 2).blk t).view.emb y) = V c main_v9 y
  refine congrArg (V c main_v9) (funext fun a => Fin.ext ?_)
  match a with
  | ⟨0, _⟩ => show win2_2.index t (0 : Fin 2) * 128 + 1 * (y 0).val = (y 0).val; omega
  | ⟨1, _⟩ => show win2_2.index t (1 : Fin 2) * 64 + 1 * (y 1).val = (y 1).val; omega

/-- The staged bias is the whole bias row. -/
theorem read_bias (c : Dev nD) (t : Fin cfg2.N) : iblk2 V c 3 t = V c main_v10 := by
  obtain ⟨-, -, -, -, -, -, e0, e1, -⟩ := block_indices t
  funext y
  show V c main_v10 (((cfg2.win 3).blk t).view.emb y) = V c main_v10 y
  refine congrArg (V c main_v10) (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- What point `t` writes back is block `t` of the node layer over the whole arrays. -/
theorem flushed_eq (c : Dev nD) (t : Fin cfg2.N) :
    (dat2 V c).flushed 4 t = ((cfg2.win 4).blk t).view.read (Elt Ideal)
      (Cert.Spec.node (V c main_arg1) (V c main_v25) (V c main_v9) (V c main_v10)) := by
  show (cfg2.win 4).cut (grid2.coords t) ((dat2 V c).after 4 t) = _
  rw [after2_4]
  unfold out2_4
  rw [View.canon_unit_zero origin]
  simp only [View.ld_unit_zero (S := S5000x64) origin, View.ld_unit_zero (S := S128x64) origin, View.ld_unit_zero (S := S1x64) origin]
  funext j
  obtain ⟨r, q, rfl⟩ : ∃ (r : Fin 5000) (q : Fin 64), j = ix2 r q := ⟨j 0, j 1, eq_ix2 j⟩
  have hN : grid2.N = 20 := N_2
  have htl : t.val < 20 := by have h : t.val < grid2.N := t.isLt; omega
  have hr := r.isLt
  obtain ⟨-, -, -, -, -, -, -, -, e8, e9⟩ := block_indices t
  have hRlt : t.val * 5000 + r.val < 100000 := by omega
  have hemb : ((cfg2.win 4).blk t).view.emb (ix2 r q) = ix2 (⟨t.val * 5000 + r.val, hRlt⟩ : Fin 100000) q := by
    funext a; apply Fin.ext
    match a with
    | ⟨0, _⟩ => show win2_4.index t (0 : Fin 2) * 5000 + 1 * r.val = t.val * 5000 + r.val; omega
    | ⟨1, _⟩ => show win2_4.index t (1 : Fin 2) * 64 + 1 * q.val = q.val; omega
  show k2_pay1 (F := Ideal) (iblk2 V c 0 t) (iblk2 V c 1 t) (iblk2 V c 2 t) (iblk2 V c 3 t) (ix2 r q)
      = Cert.Spec.node (V c main_arg1) (V c main_v25) (V c main_v9) (V c main_v10) (((cfg2.win 4).blk t).view.emb (ix2 r q))
  rw [hemb]
  refine (payload_entry (iblk2 V c 0 t) (iblk2 V c 1 t) (iblk2 V c 2 t) (iblk2 V c 3 t) r q).trans ?_
  unfold Cert.Spec.node
  refine denseAt_congr _ _ (iblk2 V c 2 t) (V c main_v9) (iblk2 V c 3 t) (V c main_v10) r
    (⟨t.val * 5000 + r.val, hRlt⟩ : Fin 100000) q (fun k => ?_) (read_weights V c t) (read_bias V c t)
  exact concat2_rows_block (by norm_num : 64 + 64 = 128) (t.val * 5000) (V c main_arg1) (V c main_v25) (iblk2 V c 0 t) (iblk2 V c 1 t)
    Cert.Spec.cat128 concatenates_S5000x64_S5000x64_S5000x128_d1 r ⟨t.val * 5000 + r.val, hRlt⟩
    (fun k' => read_own V c t r _ rfl k') (fun k' => read_avg V c t r _ rfl k') k

/-- An index of the result array is in point `t`'s block iff each coordinate is in the block's range on its axis. -/
theorem mem_blk (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v34).slice (win2_4.rect t)).set ↔ _
  rw [View.set_slice_whole, Rect.mem_set_unit]
  exact Iff.rfl

/-- Every row of the result is in some point's block: row `i` in point `i / 5000`'s. -/
theorem cover (i : S100000x64.Idx) : ∃ t : Fin cfg2.N, (cfg2.win 4).flush t = true ∧ i ∈ ((cfg2.win 4).blk t).view.set := by
  have hN : grid2.N = 20 := N_2
  have hi0 : (i 0).val < 100000 := (i 0).isLt
  have hi1 : (i 1).val < 64 := (i 1).isLt
  have htN : (i 0).val / 5000 < cfg2.N := by show (i 0).val / 5000 < grid2.N; omega
  refine ⟨⟨(i 0).val / 5000, htN⟩, flush2_4 _, ?_⟩
  obtain ⟨-, -, -, -, -, -, -, -, e8, e9⟩ := block_indices ⟨(i 0).val / 5000, htN⟩
  rw [mem_blk]
  intro a
  match a with
  | ⟨0, _⟩ =>
    show win2_4.index ⟨(i 0).val / 5000, htN⟩ (0 : Fin 2) * 5000 ≤ (i 0).val ∧ (i 0).val < win2_4.index ⟨(i 0).val / 5000, htN⟩ (0 : Fin 2) * 5000 + 5000
    rw [e8]; show (i 0).val / 5000 * 5000 ≤ (i 0).val ∧ (i 0).val < (i 0).val / 5000 * 5000 + 5000; omega
  | ⟨1, _⟩ =>
    show win2_4.index ⟨(i 0).val / 5000, htN⟩ (1 : Fin 2) * 64 ≤ (i 1).val ∧ (i 1).val < win2_4.index ⟨(i 0).val / 5000, htN⟩ (1 : Fin 2) * 64 + 64
    rw [e9]; omega

/-- The result array after the pipeline: the node layer of the arrays as the pipeline found them. -/
theorem final (c : Dev nD) :
    (dat2 V c).arrAt 4 cfg2.N = Cert.Spec.node (V c main_arg1) (V c main_v25) (V c main_v9) (V c main_v10) :=
  (dat2 V c).arrAt_eq_of_cover 4 _ (fun t _ => flushed_eq V c t) cover

end Cert.KernelIdeal.NodeLayer

end
-- ==== Proof.HostParts.lean ====
/-
  The two host computations between the dense layers, named.

  * `rowsAt T ix`: one row of the table `T` per edge — row `ix e` (an index below zero counts from the end of the
    table, as array indexing does): a gather of rows.
  * `avgMessages M ix`: for each node, the sum of the messages `M e` of the edges `e` with `ix e` that node, divided by
    the larger of their number and one: two scatter-additions (of the messages, and of ones), a maximum and a division.

  Both are kept as the host operations they are printed as; nothing below opens them.

  With them, the program's two results as functions of its eleven arguments: the messages are the message layer of the
  source nodes' rows and the edges' features; every node's averaged messages come from them; the nodes' result is the
  node layer of the nodes' own features and their averaged messages; the edges' result is the edge layer of the source
  nodes' rows, the edges' features and the destination nodes' rows of the averaged messages. Each layer's weights are
  the transposed weight argument, and its bias row the bias argument laid as one row.
-/
import proofs.«168748_j83425444757686_2_alg».proof.Proof.Gen.KernelIdeal
import Idealize.ShloMosaic.PureOps.Ideal
import proofs.«168748_j83425444757686_2_alg».proof.Proof.Spec

noncomputable section

namespace Cert.KernelIdeal.HostParts

open Idealize.ShloMosaic Cert.KernelIdeal Cert.KernelIdeal.Gen

/-- Row `ix e` of the table for every edge `e`. -/
def rowsAt (T : FVec Ideal S100000x64 .f32) (ix : IVec S1600000 32) : FVec Ideal S1600000x64 .f32 :=
  Host.gather gather_S100000x64_S1600000x1_S1600000x64_1_0_n_n_0_1_164 T
    (broadcastInDim S1600000x1 ![0] bcast_S1600000_S1600000x1_0
      (select (cmpi .slt ix (broadcastInDim S1600000 ![] bcast_S_S1600000 (constantI S_ 32 0#32)))
        (addi ix (broadcastInDim S1600000 ![] bcast_S_S1600000 (constantI S_ 32 100000#32))) ix))

/-- Every node's averaged messages. -/
def avgMessages (M : FVec Ideal S1600000x64 .f32) (ix : IVec S1600000 32) : FVec Ideal S100000x64 .f32 :=
  Host.divf (F := Ideal)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 ix) M)
    (broadcastInDim S100000x64 ![0, 1] bcast_S100000x1_S100000x64_0_1
      (broadcastInDim S100000x1 ![0] bcast_S100000_S100000x1_0
        (maximumf
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 ix)
            (broadcastInDim S1600000 ![] bcast_S_S1600000 (constant (F := Ideal) S_ .f32 0x3F800000#32)))
          (broadcastInDim S100000 ![] bcast_S_S100000 (constant (F := Ideal) S_ .f32 0x3F800000#32)))))

/-- The messages, one row per edge. -/
def msgs (a0 : FVec Ideal S100000x64 .f32) (a2 : FVec Ideal S1600000x32 .f32) (a3 : IVec S1600000 32)
    (a5 : FVec Ideal S64x96 .f32) (a6 : FVec Ideal S64 .f32) : FVec Ideal S1600000x64 .f32 :=
  Cert.Spec.message (rowsAt a0 a3) a2 (transpose S96x64 [1, 0] a5 transposes_S64x96_S96x64_1_0) (shapeCast S1x64 a6 shapeCasts_S64_S1x64)

/-- Every node's averaged messages, from the arguments. -/
def avg (a0 : FVec Ideal S100000x64 .f32) (a2 : FVec Ideal S1600000x32 .f32) (a3 a4 : IVec S1600000 32)
    (a5 : FVec Ideal S64x96 .f32) (a6 : FVec Ideal S64 .f32) : FVec Ideal S100000x64 .f32 :=
  avgMessages (msgs a0 a2 a3 a5 a6) a4

/-- The nodes' result. -/
def nodeOut (a0 a1 : FVec Ideal S100000x64 .f32) (a2 : FVec Ideal S1600000x32 .f32) (a3 a4 : IVec S1600000 32)
    (a5 : FVec Ideal S64x96 .f32) (a6 : FVec Ideal S64 .f32) (a7 : FVec Ideal S64x128 .f32) (a8 : FVec Ideal S64 .f32) :
    FVec Ideal S100000x64 .f32 :=
  Cert.Spec.node a1 (avg a0 a2 a3 a4 a5 a6) (transpose S128x64 [1, 0] a7 transposes_S64x128_S128x64_1_0)
    (shapeCast S1x64 a8 shapeCasts_S64_S1x64)

/-- The edges' result. -/
def edgeOut (a0 : FVec Ideal S100000x64 .f32) (a2 : FVec Ideal S1600000x32 .f32) (a3 a4 : IVec S1600000 32)
    (a5 : FVec Ideal S64x96 .f32) (a6 : FVec Ideal S64 .f32) (a9 : FVec Ideal S64x160 .f32) (a10 : FVec Ideal S64 .f32) :
    FVec Ideal S1600000x64 .f32 :=
  Cert.Spec.edge (rowsAt a0 a3) a2 (rowsAt (avg a0 a2 a3 a4 a5 a6) a4) (transpose S160x64 [1, 0] a9 transposes_S64x160_S160x64_1_0)
    (shapeCast S1x64 a10 shapeCasts_S64_S1x64)

end Cert.KernelIdeal.HostParts

end
-- ==== Proof.Walk.lean ====
/-
  The idealized kernel's run, read back to its arguments.

  The contents of every buffer at each of the program's five boundaries are a fold from the launch memory: host
  operations write their results, a pipeline leaves each of its output arrays at what its write-backs hold and every
  other buffer as it found it. Reading the two result buffers back through the fold, one boundary at a time:

  * the nodes' result is the node layer's output array, which is the node layer of four arrays as the last pipeline found
    them: the nodes' own features (an argument, never written), the averaged messages (written by the second stretch of
    host operations from the messages), the transposed weights and the bias row (written by the first stretch);
  * the averaged messages are `avgMessages` of the message array — the message layer's output array, the message layer
    of the source nodes' rows, the edges' features, the transposed weights and the bias row as the first pipeline found
    them — and of the destination indices;
  * the edges' result is the edge layer's output array, untouched by the last pipeline; it is the edge layer of arrays
    read the same way.

  So both results are the closed functions `nodeOut` and `edgeOut` of the eleven arguments.
-/
import proofs.«168748_j83425444757686_2_alg».proof.Proof.NamedRun
import proofs.«168748_j83425444757686_2_alg».proof.Proof.MessageLayer
import proofs.«168748_j83425444757686_2_alg».proof.Proof.EdgeLayer
import proofs.«168748_j83425444757686_2_alg».proof.Proof.NodeLayer
import proofs.«168748_j83425444757686_2_alg».proof.Proof.HostParts
import Idealize.ShloMosaic.Lib.StableHlo.Run

set_option maxRecDepth 16384

noncomputable section

namespace Cert.KernelIdeal.Walk

open Idealize.ShloMosaic Idealize.ShloMosaic.TcCoe Idealize.ShloMosaic.Tactic Idealize.ShloMosaic.StableHlo
open Idealize.SL Idealize.SL.Sem
open Idealize.ShloMosaic.Pipeline (Dat)
open Cert.KernelIdeal Cert.KernelIdeal.Gen Cert.KernelIdeal.HostParts

variable (m : (ℓ : Loc nD τ sig) → Buf (Elt Ideal) ℓ) (ρ : Dev nD → PrngReg)

/-! ## After the first stretch of host operations -/

theorem at1_src (c : Dev nD) : W1 m ρ c (Proc.devRef .tc main_v6) = rowsAt (m ((c : Thread nD τ).loc main_arg0)) (m ((c : Thread nD τ).loc main_arg3)) := by
  show StableHlo.after hostOps0 (W0 m ρ c) _ = _
  after_results <;> rfl
theorem at1_wMsg (c : Dev nD) : W1 m ρ c (Proc.devRef .tc main_v7) = transpose S96x64 [1, 0] (m ((c : Thread nD τ).loc main_arg5)) transposes_S64x96_S96x64_1_0 := by
  show StableHlo.after hostOps0 (W0 m ρ c) _ = _
  after_results <;> rfl
theorem at1_bMsg (c : Dev nD) : W1 m ρ c (Proc.devRef .tc main_v8) = shapeCast S1x64 (m ((c : Thread nD τ).loc main_arg6)) shapeCasts_S64_S1x64 := by
  show StableHlo.after hostOps0 (W0 m ρ c) _ = _
  after_results <;> rfl
theorem at1_wNode (c : Dev nD) : W1 m ρ c (Proc.devRef .tc main_v9) = transpose S128x64 [1, 0] (m ((c : Thread nD τ).loc main_arg7)) transposes_S64x128_S128x64_1_0 := by
  show StableHlo.after hostOps0 (W0 m ρ c) _ = _
  after_results <;> rfl
theorem at1_bNode (c : Dev nD) : W1 m ρ c (Proc.devRef .tc main_v10) = shapeCast S1x64 (m ((c : Thread nD τ).loc main_arg8)) shapeCasts_S64_S1x64 := by
  show StableHlo.after hostOps0 (W0 m ρ c) _ = _
  after_results <;> rfl
theorem at1_wEdge (c : Dev nD) : W1 m ρ c (Proc.devRef .tc main_v11) = transpose S160x64 [1, 0] (m ((c : Thread nD τ).loc main_arg9)) transposes_S64x160_S160x64_1_0 := by
  show StableHlo.after hostOps0 (W0 m ρ c) _ = _
  after_results <;> rfl
theorem at1_bEdge (c : Dev nD) : W1 m ρ c (Proc.devRef .tc main_v12) = shapeCast S1x64 (m ((c : Thread nD τ).loc main_arg10)) shapeCasts_S64_S1x64 := by
  show StableHlo.after hostOps0 (W0 m ρ c) _ = _
  after_results <;> rfl
theorem at1_own (c : Dev nD) : W1 m ρ c (Proc.devRef .tc main_arg1) = (m ((c : Thread nD τ).loc main_arg1)) := by
  show StableHlo.after hostOps0 (W0 m ρ c) _ = _
  after_results <;> rfl
theorem at1_efeat (c : Dev nD) : W1 m ρ c (Proc.devRef .tc main_arg2) = (m ((c : Thread nD τ).loc main_arg2)) := by
  show StableHlo.after hostOps0 (W0 m ρ c) _ = _
  after_results <;> rfl
theorem at1_dst (c : Dev nD) : W1 m ρ c (Proc.devRef .tc main_arg4) = (m ((c : Thread nD τ).loc main_arg4)) := by
  show StableHlo.after hostOps0 (W0 m ρ c) _ = _
  after_results <;> rfl

/-! ## After the message layer's pipeline -/

/-- The message array holds the messages. -/
theorem at2_msgs (c : Dev nD) :
    W2 m ρ c (Proc.devRef .tc main_v13) = msgs (m ((c : Thread nD τ).loc main_arg0)) (m ((c : Thread nD τ).loc main_arg2)) (m ((c : Thread nD τ).loc main_arg3)) (m ((c : Thread nD τ).loc main_arg5)) (m ((c : Thread nD τ).loc main_arg6)) := by
  refine (W2_arr m ρ c 4).trans ((Cert.KernelIdeal.MessageLayer.final (V1 m ρ) c).trans ?_)
  show Cert.Spec.message (W1 m ρ c (Proc.devRef .tc main_v6)) (W1 m ρ c (Proc.devRef .tc main_arg2))
      (W1 m ρ c (Proc.devRef .tc main_v7)) (W1 m ρ c (Proc.devRef .tc main_v8)) = _
  rw [at1_src, at1_efeat, at1_wMsg, at1_bMsg]
  rfl
theorem at2_src (c : Dev nD) : W2 m ρ c (Proc.devRef .tc main_v6) = rowsAt (m ((c : Thread nD τ).loc main_arg0)) (m ((c : Thread nD τ).loc main_arg3)) :=
  ((W2_arr m ρ c 0).trans (((dat0 (V1 m ρ) c).arrAt_in 0 rfl _).trans (A_eq0 (V1 m ρ) c 0))).trans (at1_src m ρ c)
theorem at2_efeat (c : Dev nD) : W2 m ρ c (Proc.devRef .tc main_arg2) = (m ((c : Thread nD τ).loc main_arg2)) :=
  ((W2_arr m ρ c 1).trans (((dat0 (V1 m ρ) c).arrAt_in 1 rfl _).trans (A_eq0 (V1 m ρ) c 1))).trans (at1_efeat m ρ c)
theorem at2_dst (c : Dev nD) : W2 m ρ c (Proc.devRef .tc main_arg4) = (m ((c : Thread nD τ).loc main_arg4)) :=
  (W2_of_ne m ρ c main_arg4 (by decide)).trans (at1_dst m ρ c)
theorem at2_own (c : Dev nD) : W2 m ρ c (Proc.devRef .tc main_arg1) = (m ((c : Thread nD τ).loc main_arg1)) :=
  (W2_of_ne m ρ c main_arg1 (by decide)).trans (at1_own m ρ c)
theorem at2_wNode (c : Dev nD) : W2 m ρ c (Proc.devRef .tc main_v9) = transpose S128x64 [1, 0] (m ((c : Thread nD τ).loc main_arg7)) transposes_S64x128_S128x64_1_0 :=
  (W2_of_ne m ρ c main_v9 (by decide)).trans (at1_wNode m ρ c)
theorem at2_bNode (c : Dev nD) : W2 m ρ c (Proc.devRef .tc main_v10) = shapeCast S1x64 (m ((c : Thread nD τ).loc main_arg8)) shapeCasts_S64_S1x64 :=
  (W2_of_ne m ρ c main_v10 (by decide)).trans (at1_bNode m ρ c)
theorem at2_wEdge (c : Dev nD) : W2 m ρ c (Proc.devRef .tc main_v11) = transpose S160x64 [1, 0] (m ((c : Thread nD τ).loc main_arg9)) transposes_S64x160_S160x64_1_0 :=
  (W2_of_ne m ρ c main_v11 (by decide)).trans (at1_wEdge m ρ c)
theorem at2_bEdge (c : Dev nD) : W2 m ρ c (Proc.devRef .tc main_v12) = shapeCast S1x64 (m ((c : Thread nD τ).loc main_arg10)) shapeCasts_S64_S1x64 :=
  (W2_of_ne m ρ c main_v12 (by decide)).trans (at1_bEdge m ρ c)

/-! ## After the second stretch of host operations -/

/-- The averaged messages. -/
theorem at3_avg (c : Dev nD) :
    W3 m ρ c (Proc.devRef .tc main_v25) = avg (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  have h : W3 m ρ c (Proc.devRef .tc main_v25)
      = avgMessages (W2 m ρ c (Proc.devRef .tc main_v13)) (W2 m ρ c (Proc.devRef .tc main_arg4)) := by
    show StableHlo.after hostOps1 (W2 m ρ c) _ = _
    after_results <;> rfl
  rw [h, at2_msgs, at2_dst]
  rfl
/-- The destination nodes' rows of the averaged messages. -/
theorem at3_avgRows (c : Dev nD) :
    W3 m ρ c (Proc.devRef .tc main_v32) = rowsAt (avg (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg4)) := by
  have h : W3 m ρ c (Proc.devRef .tc main_v32)
      = rowsAt (avgMessages (W2 m ρ c (Proc.devRef .tc main_v13)) (W2 m ρ c (Proc.devRef .tc main_arg4)))
          (W2 m ρ c (Proc.devRef .tc main_arg4)) := by
    show StableHlo.after hostOps1 (W2 m ρ c) _ = _
    after_results_simp <;> rfl
  rw [h, at2_msgs, at2_dst]
  rfl
theorem at3_src (c : Dev nD) : W3 m ρ c (Proc.devRef .tc main_v6) = rowsAt (m ((c : Thread nD τ).loc main_arg0)) (m ((c : Thread nD τ).loc main_arg3)) := by
  refine Eq.trans ?_ (at2_src m ρ c)
  show StableHlo.after hostOps1 (W2 m ρ c) _ = _
  after_results <;> rfl
theorem at3_efeat (c : Dev nD) : W3 m ρ c (Proc.devRef .tc main_arg2) = (m ((c : Thread nD τ).loc main_arg2)) := by
  refine Eq.trans ?_ (at2_efeat m ρ c)
  show StableHlo.after hostOps1 (W2 m ρ c) _ = _
  after_results <;> rfl
theorem at3_own (c : Dev nD) : W3 m ρ c (Proc.devRef .tc main_arg1) = (m ((c : Thread nD τ).loc main_arg1)) := by
  refine Eq.trans ?_ (at2_own m ρ c)
  show StableHlo.after hostOps1 (W2 m ρ c) _ = _
  after_results <;> rfl
theorem at3_wNode (c : Dev nD) : W3 m ρ c (Proc.devRef .tc main_v9) = transpose S128x64 [1, 0] (m ((c : Thread nD τ).loc main_arg7)) transposes_S64x128_S128x64_1_0 := by
  refine Eq.trans ?_ (at2_wNode m ρ c)
  show StableHlo.after hostOps1 (W2 m ρ c) _ = _
  after_results <;> rfl
theorem at3_bNode (c : Dev nD) : W3 m ρ c (Proc.devRef .tc main_v10) = shapeCast S1x64 (m ((c : Thread nD τ).loc main_arg8)) shapeCasts_S64_S1x64 := by
  refine Eq.trans ?_ (at2_bNode m ρ c)
  show StableHlo.after hostOps1 (W2 m ρ c) _ = _
  after_results <;> rfl
theorem at3_wEdge (c : Dev nD) : W3 m ρ c (Proc.devRef .tc main_v11) = transpose S160x64 [1, 0] (m ((c : Thread nD τ).loc main_arg9)) transposes_S64x160_S160x64_1_0 := by
  refine Eq.trans ?_ (at2_wEdge m ρ c)
  show StableHlo.after hostOps1 (W2 m ρ c) _ = _
  after_results <;> rfl
theorem at3_bEdge (c : Dev nD) : W3 m ρ c (Proc.devRef .tc main_v12) = shapeCast S1x64 (m ((c : Thread nD τ).loc main_arg10)) shapeCasts_S64_S1x64 := by
  refine Eq.trans ?_ (at2_bEdge m ρ c)
  show StableHlo.after hostOps1 (W2 m ρ c) _ = _
  after_results <;> rfl

/-! ## After the edge layer's pipeline, and after the node layer's -/

/-- The edges' result array holds the edge layer. -/
theorem at4_edge (c : Dev nD) :
    W4 m ρ c (Proc.devRef .tc main_v33) = edgeOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  refine (W4_arr m ρ c 5).trans ((Cert.KernelIdeal.EdgeLayer.final (V3 m ρ) c).trans ?_)
  show Cert.Spec.edge (W3 m ρ c (Proc.devRef .tc main_v6)) (W3 m ρ c (Proc.devRef .tc main_arg2))
      (W3 m ρ c (Proc.devRef .tc main_v32)) (W3 m ρ c (Proc.devRef .tc main_v11)) (W3 m ρ c (Proc.devRef .tc main_v12)) = _
  rw [at3_src, at3_efeat, at3_avgRows, at3_wEdge, at3_bEdge]
  rfl

/-- The edges' result, at the end. -/
theorem end_edge (c : Dev nD) :
    W5 m ρ c (Proc.devRef .tc main_v33) = edgeOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  (W5_of_ne m ρ c main_v33 (by decide)).trans (at4_edge m ρ c)

/-- The nodes' result, at the end. -/
theorem end_node (c : Dev nD) :
    W5 m ρ c (Proc.devRef .tc main_v34)
      = nodeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W5_arr m ρ c 4).trans ((Cert.KernelIdeal.NodeLayer.final (V4 m ρ) c).trans ?_)
  show Cert.Spec.node (W4 m ρ c (Proc.devRef .tc main_arg1)) (W4 m ρ c (Proc.devRef .tc main_v25))
      (W4 m ρ c (Proc.devRef .tc main_v9)) (W4 m ρ c (Proc.devRef .tc main_v10)) = _
  rw [W4_of_ne m ρ c main_arg1 (by decide), W4_of_ne m ρ c main_v25 (by decide), W4_of_ne m ρ c main_v9 (by decide),
    W4_of_ne m ρ c main_v10 (by decide), at3_own, at3_avg, at3_wNode, at3_bNode]
  rfl

/-! ## The run, read -/

/-- Every weakly fair execution of the idealized kernel ends with its two results at `nodeOut` and `edgeOut` of the
    argument arrays, and with the arguments as launched. -/
theorem run : θ_run defs (onTc (τ := τ) (main (F := Ideal))) ⟨m, fun _ => 0, ρ⟩ (fun r => ∀ c : Dev nD,
      r.2.mem ((c.tc : Thread nD τ).loc main_v34) = nodeOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_v33) = edgeOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (end_node m ρ c), (h c).2.1.trans (end_edge m ρ c), (h c).2.2⟩)
    (run_named m ρ)

end Cert.KernelIdeal.Walk

end
-- ==== Proof.RefLayers.lean ====
/-
  The reference computes the same two functions of the arguments.

  The reference is one line of host operations. Its messages are a host matrix product of the source nodes' rows set
  beside the edges' features with the transposed weights, plus the bias spread to every row, then the larger of that
  and zero: entry by entry the message layer. Its averaged messages and its rows of them are the same host operations
  as the kernel's. Its two results are again a host matrix product plus the bias spread to every row: the node layer
  and the edge layer of the same arrays. The bias spread first to one row and then to every row holds, in row `p`,
  the bias laid as one row.
-/
import proofs.«168748_j83425444757686_2_alg».proof.Proof.Gen.ReferenceIdeal.Read
import proofs.«168748_j83425444757686_2_alg».proof.Proof.HostParts

noncomputable section

namespace Cert.ReferenceIdeal.RefValue

open Cert.ReferenceIdeal Cert.ReferenceIdeal.Gen Cert.ReferenceIdeal.Read
open Idealize.ShloMosaic Idealize.ShloMosaic.ValueIdx Cert.Lib.DenseLayer
open Cert.KernelIdeal.HostParts

/-- A length-64 vector spread along a new leading unit axis is the vector laid as one row. -/
theorem bias_row (x : (⟨S64, .f32⟩ : BufTy).Contents (Elt Ideal)) :
    broadcastInDim S1x64 ![1] bcast_S64_S1x64_1 x = (shapeCast Cert.KernelIdeal.S1x64 x Cert.KernelIdeal.Gen.shapeCasts_S64_S1x64) := by
  funext i
  obtain ⟨u, q, rfl⟩ : ∃ (u : Fin 1) (q : Fin 64), i = ix2 u q := ⟨i 0, i 1, eq_ix2 i⟩
  have hu : u.val = 0 := by omega
  rw [broadcastInDim_apply _ bcast_S64_S1x64_1 x (ix2 u q) (ix1 q) (fun a => match a with
    | ⟨0, _⟩ => by show q.val = if (64 : Nat) = 1 then 0 else q.val; rw [if_neg (by decide)])]
  exact (shapeCast_apply x _ (ix2 u q) (ix1 q) (by
    rw [Shape.rowMajor_val_two, Shape.rowMajor_val_one]
    show q.val = u.val * 64 + q.val
    omega)).symm

/-- The reference's messages are the messages. -/
theorem msgs_eq (x0 : (⟨S100000x64, .f32⟩ : BufTy).Contents (Elt Ideal)) (x2 : (⟨S1600000x32, .f32⟩ : BufTy).Contents (Elt Ideal)) (x3 : (⟨S1600000, .i32⟩ : BufTy).Contents (Elt Ideal))
    (x5 : (⟨S64x96, .f32⟩ : BufTy).Contents (Elt Ideal)) (x6 : (⟨S64, .f32⟩ : BufTy).Contents (Elt Ideal)) :
    val_main_v13 (F := Ideal) x0 x2 x3 x5 x6 = msgs x0 x2 x3 x5 x6 := by
  funext i
  obtain ⟨p, q, rfl⟩ : ∃ (p : Fin 1600000) (q : Fin 64), i = ix2 p q := ⟨i 0, i 1, eq_ix2 i⟩
  have hb : val_main_v10 (F := Ideal) x6 = (shapeCast Cert.KernelIdeal.S1x64 x6 Cert.KernelIdeal.Gen.shapeCasts_S64_S1x64) := bias_row x6
  have key : val_main_v12 (F := Ideal) x0 x2 x3 x5 x6 (ix2 p q)
      = denseAt (concatenate ⟨2, ![1600000, 96]⟩ 1 [⟨⟨2, ![1600000, 64]⟩, rowsAt x0 x3⟩, ⟨⟨2, ![1600000, 32]⟩, x2⟩] Cert.Spec.cat96)
          (transpose Cert.KernelIdeal.S96x64 [1, 0] x5 Cert.KernelIdeal.Gen.transposes_S64x96_S96x64_1_0) (shapeCast Cert.KernelIdeal.S1x64 x6 Cert.KernelIdeal.Gen.shapeCasts_S64_S1x64) p q := by
    rw [← hb]
    exact host_entry dot_S1600000x96_S96x64_S1600000x64_1_0_0_1_n_n rfl none (val_main_v7 (F := Ideal) x0 x2 x3)
      (val_main_v8 (F := Ideal) x5) (val_main_v11 (F := Ideal) x6) (val_main_v10 (F := Ideal) x6) p q
      ((val_main_v11_apply x6 (ix2 p q)).trans (congrArg (val_main_v10 (F := Ideal) x6) (funext fun a => by
        match a with
        | ⟨0, _⟩ => rfl
        | ⟨1, _⟩ => rfl)))
  rw [val_main_v13_apply, val_main_call0_v0_apply, val_main_call0_cst_apply]
  exact congrArg (max · (Ideal.ofBits .f32 0x00000000#32)) key

/-- The reference's averaged messages are the averaged messages. -/
theorem avg_eq (x0 : (⟨S100000x64, .f32⟩ : BufTy).Contents (Elt Ideal)) (x2 : (⟨S1600000x32, .f32⟩ : BufTy).Contents (Elt Ideal)) (x3 x4 : (⟨S1600000, .i32⟩ : BufTy).Contents (Elt Ideal))
    (x5 : (⟨S64x96, .f32⟩ : BufTy).Contents (Elt Ideal)) (x6 : (⟨S64, .f32⟩ : BufTy).Contents (Elt Ideal)) :
    val_main_v25 (F := Ideal) x0 x2 x3 x4 x5 x6 = avg x0 x2 x3 x4 x5 x6 := by
  show avgMessages (val_main_v13 (F := Ideal) x0 x2 x3 x5 x6) x4 = _
  rw [msgs_eq]
  rfl

/-- The reference's first result is the nodes' result. -/
theorem node_eq (x0 x1 : (⟨S100000x64, .f32⟩ : BufTy).Contents (Elt Ideal)) (x2 : (⟨S1600000x32, .f32⟩ : BufTy).Contents (Elt Ideal)) (x3 x4 : (⟨S1600000, .i32⟩ : BufTy).Contents (Elt Ideal))
    (x5 : (⟨S64x96, .f32⟩ : BufTy).Contents (Elt Ideal)) (x6 : (⟨S64, .f32⟩ : BufTy).Contents (Elt Ideal)) (x7 : (⟨S64x128, .f32⟩ : BufTy).Contents (Elt Ideal)) (x8 : (⟨S64, .f32⟩ : BufTy).Contents (Elt Ideal)) :
    val_main_v44 (F := Ideal) x0 x1 x2 x3 x4 x5 x6 x7 x8 = nodeOut x0 x1 x2 x3 x4 x5 x6 x7 x8 := by
  funext i
  obtain ⟨p, q, rfl⟩ : ∃ (p : Fin 100000) (q : Fin 64), i = ix2 p q := ⟨i 0, i 1, eq_ix2 i⟩
  have hb : val_main_v42 (F := Ideal) x8 = (shapeCast Cert.KernelIdeal.S1x64 x8 Cert.KernelIdeal.Gen.shapeCasts_S64_S1x64) := bias_row x8
  have hH : val_main_v25 (F := Ideal) x0 x2 x3 x4 x5 x6 = avg x0 x2 x3 x4 x5 x6 := avg_eq x0 x2 x3 x4 x5 x6
  show val_main_v44 (F := Ideal) x0 x1 x2 x3 x4 x5 x6 x7 x8 (ix2 p q)
      = denseAt (concatenate ⟨2, ![100000, 128]⟩ 1 [⟨⟨2, ![100000, 64]⟩, x1⟩, ⟨⟨2, ![100000, 64]⟩, avg x0 x2 x3 x4 x5 x6⟩] Cert.Spec.cat128)
          (transpose Cert.KernelIdeal.S128x64 [1, 0] x7 Cert.KernelIdeal.Gen.transposes_S64x128_S128x64_1_0) (shapeCast Cert.KernelIdeal.S1x64 x8 Cert.KernelIdeal.Gen.shapeCasts_S64_S1x64) p q
  rw [← hb, ← hH]
  exact host_entry dot_S100000x128_S128x64_S100000x64_1_0_0_1_n_n rfl none (val_main_v39 (F := Ideal) x0 x1 x2 x3 x4 x5 x6)
    (val_main_v40 (F := Ideal) x7) (val_main_v43 (F := Ideal) x8) (val_main_v42 (F := Ideal) x8) p q
    ((val_main_v43_apply x8 (ix2 p q)).trans (congrArg (val_main_v42 (F := Ideal) x8) (funext fun a => by
      match a with
      | ⟨0, _⟩ => rfl
      | ⟨1, _⟩ => rfl)))

/-- The reference's second result is the edges' result. -/
theorem edge_eq (x0 : (⟨S100000x64, .f32⟩ : BufTy).Contents (Elt Ideal)) (x2 : (⟨S1600000x32, .f32⟩ : BufTy).Contents (Elt Ideal)) (x3 x4 : (⟨S1600000, .i32⟩ : BufTy).Contents (Elt Ideal))
    (x5 : (⟨S64x96, .f32⟩ : BufTy).Contents (Elt Ideal)) (x6 : (⟨S64, .f32⟩ : BufTy).Contents (Elt Ideal)) (x9 : (⟨S64x160, .f32⟩ : BufTy).Contents (Elt Ideal)) (x10 : (⟨S64, .f32⟩ : BufTy).Contents (Elt Ideal)) :
    val_main_v38 (F := Ideal) x0 x2 x3 x4 x5 x6 x9 x10 = edgeOut x0 x2 x3 x4 x5 x6 x9 x10 := by
  funext i
  obtain ⟨p, q, rfl⟩ : ∃ (p : Fin 1600000) (q : Fin 64), i = ix2 p q := ⟨i 0, i 1, eq_ix2 i⟩
  have hb : val_main_v36 (F := Ideal) x10 = (shapeCast Cert.KernelIdeal.S1x64 x10 Cert.KernelIdeal.Gen.shapeCasts_S64_S1x64) := bias_row x10
  have hH : val_main_v25 (F := Ideal) x0 x2 x3 x4 x5 x6 = avg x0 x2 x3 x4 x5 x6 := avg_eq x0 x2 x3 x4 x5 x6
  show val_main_v38 (F := Ideal) x0 x2 x3 x4 x5 x6 x9 x10 (ix2 p q)
      = denseAt (concatenate ⟨2, ![1600000, 160]⟩ 1 [⟨⟨2, ![1600000, 64]⟩, rowsAt x0 x3⟩, ⟨⟨2, ![1600000, 32]⟩, x2⟩,
            ⟨⟨2, ![1600000, 64]⟩, rowsAt (avg x0 x2 x3 x4 x5 x6) x4⟩] Cert.Spec.cat160)
          (transpose Cert.KernelIdeal.S160x64 [1, 0] x9 Cert.KernelIdeal.Gen.transposes_S64x160_S160x64_1_0) (shapeCast Cert.KernelIdeal.S1x64 x10 Cert.KernelIdeal.Gen.shapeCasts_S64_S1x64) p q
  rw [← hb, ← hH]
  exact host_entry dot_S1600000x160_S160x64_S1600000x64_1_0_0_1_n_n rfl none (val_main_v33 (F := Ideal) x0 x2 x3 x4 x5 x6)
    (val_main_v34 (F := Ideal) x9) (val_main_v37 (F := Ideal) x10) (val_main_v36 (F := Ideal) x10) p q
    ((val_main_v37_apply x10 (ix2 p q)).trans (congrArg (val_main_v36 (F := Ideal) x10) (funext fun a => by
      match a with
      | ⟨0, _⟩ => rfl
      | ⟨1, _⟩ => rfl)))

end Cert.ReferenceIdeal.RefValue

end
-- ==== Proof.lean ====
/-
  The kernel against its reference, over the extended reals.

  The program is a graph layer. From the nodes' features, the edges' features and the edges' endpoints it computes a
  message per edge (a dense layer of the source node's features beside the edge's, then the larger of that and zero),
  every node's average of the messages arriving at it, new edge features (a dense layer of the source node's features,
  the edge's and the destination node's average) and new node features (a dense layer of the node's own features beside
  its average).

  The kernel runs each dense layer as a pipeline over blocks of rows; inside a block the body joins the staged pieces
  side by side and multiplies once by the resident weights. The reference joins the whole arrays and multiplies once.
  A dense layer is computed row by row and each entry is ONE sum over the joined columns on both sides, so the two
  agree entry by entry with no rearrangement of any sum: nothing here needs the inputs to be finite. The gathers of
  rows and the scatter-additions behind the average are the same host operations in both programs and are never
  opened.

  The pieces: `Spec` (the three layers as whole-array functions), `MessageLayer` / `EdgeLayer` / `NodeLayer` (each
  pipeline's output array is its layer of the arrays it found), `NamedRun` and `Walk` (the kernel's run, its two
  results read back to the arguments), `RefLayers` (the reference's two results are the same functions).
  The ideal pass rewrote nothing, so the idealized kernel is the kernel's own text read over the extended reals.
-/
import proofs.«168748_j83425444757686_2_alg».proof.Defs
import proofs.«168748_j83425444757686_2_alg».proof.Proof.Gen.Kernel
import proofs.«168748_j83425444757686_2_alg».proof.Proof.Gen.Kernel.Skeleton
import proofs.«168748_j83425444757686_2_alg».proof.Proof.Gen.Kernel.Launch
import proofs.«168748_j83425444757686_2_alg».proof.Proof.Gen.Kernel.Points
import proofs.«168748_j83425444757686_2_alg».proof.Proof.Gen.Kernel.Frame
import proofs.«168748_j83425444757686_2_alg».proof.Proof.Gen.KernelIdeal
import proofs.«168748_j83425444757686_2_alg».proof.Proof.Gen.KernelIdeal.Skeleton
import proofs.«168748_j83425444757686_2_alg».proof.Proof.Gen.KernelIdeal.Launch
import proofs.«168748_j83425444757686_2_alg».proof.Proof.Gen.KernelIdeal.Points
import proofs.«168748_j83425444757686_2_alg».proof.Proof.Gen.KernelIdeal.Frame
import proofs.«168748_j83425444757686_2_alg».proof.Proof.Gen.ReferenceIdeal
import proofs.«168748_j83425444757686_2_alg».proof.Proof.Gen.ReferenceIdeal.Run
import proofs.«168748_j83425444757686_2_alg».proof.Proof.Gen.ReferenceIdeal.Read
import proofs.«168748_j83425444757686_2_alg».proof.Proof.Gen.Pre_finite_inputs
import proofs.«168748_j83425444757686_2_alg».proof.Proof.Walk
import proofs.«168748_j83425444757686_2_alg».proof.Proof.RefLayers
import Idealize.ShloMosaic.Adequacy
import Idealize.ShloMosaic.Init

noncomputable section

namespace Cert.Proof

open Idealize.ShloMosaic Idealize.ShloMosaic.TcCoe Idealize.SL.Sem

/-- The kernel as printed runs, and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments both programs end with the nodes' result at `nodeOut` and the edges'
    result at `edgeOut` of the arguments. -/
theorem algebraic : Cert.algebraic_KernelIdeal_ReferenceIdeal := by
  intro m ρ m' ρ' _ hagree
  refine ⟨_, _, Cert.KernelIdeal.Walk.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v44_eq, Cert.ReferenceIdeal.RefValue.node_eq, h0, h1, h2, h3, h4, h5, h6, h7, h8]
  · obtain ⟨h0, h1, h2, h3, h4, h5, h6, h7, h8, h9, h10⟩ := hagree c
    rw [Cert.ReferenceIdeal.Read.val_main_v38_eq, Cert.ReferenceIdeal.RefValue.edge_eq, h0, h2, h3, h4, h5, h6, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
